-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v624) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x4 : Shape := ⟨2, ![4194304, 4]⟩
abbrev S_ : Shape := ⟨0, ![]⟩

class Facts : Prop where
  bcast_S_S4194304x4 : S_.BroadcastsInDim S4194304x4 (![] : Fin 0 → Fin S4194304x4.rank)
  reducesTo_S4194304x4_S_d0_1 : S4194304x4.ReducesTo [0, 1] S_
  h_S_ : 0 < S_.numel

variable [Facts]

def fn {F : FTy → Type} [FloatOps F] (main_arg0 : FVec F S4194304x4 .f32) (main_arg1 : FVec F S4194304x4 .f32) : IVec S_ 1 :=
  let main_v0 : FVec F S4194304x4 .f32 := Host.absf main_arg0
  let main_cst : FVec F S_ .f32 := constant S_ .f32 0x7F800000#32
  let main_v1 : FVec F S4194304x4 .f32 := broadcastInDim S4194304x4 ![] bcast_S_S4194304x4 main_cst
  let main_v2 : IVec S4194304x4 1 := cmpf .olt main_v0 main_v1
  let main_c : IVec S_ 1 := constantI S_ 1 1#1
  let main_v3 : IVec S_ 1 := (fun x v => Host.reduce IntOp.andi x v reducesTo_S4194304x4_S_d0_1 h_S_) main_v2 main_c
  let main_v4 : FVec F S4194304x4 .f32 := Host.absf main_arg1
  let main_cst_0 : FVec F S_ .f32 := constant S_ .f32 0x7F800000#32
  let main_v5 : FVec F S4194304x4 .f32 := broadcastInDim S4194304x4 ![] bcast_S_S4194304x4 main_cst_0
  let main_v6 : IVec S4194304x4 1 := cmpf .olt main_v4 main_v5
  let main_c_1 : IVec S_ 1 := constantI S_ 1 1#1
  let main_v7 : IVec S_ 1 := (fun x v => Host.reduce IntOp.andi x v reducesTo_S4194304x4_S_d0_1 h_S_) main_v6 main_c_1
  let main_v8 : IVec S_ 1 := andi main_v3 main_v7
  main_v8
-- ==== Kernel.lean ====
abbrev S4194304x4 : Shape := ⟨2, ![4194304, 4]⟩
abbrev S4x4194304 : Shape := ⟨2, ![4, 4194304]⟩
abbrev S8x4194304 : Shape := ⟨2, ![8, 4194304]⟩
abbrev S4x131072 : Shape := ⟨2, ![4, 131072]⟩
abbrev S8x131072 : Shape := ⟨2, ![8, 131072]⟩
abbrev S1x131072 : Shape := ⟨2, ![1, 131072]⟩
abbrev S4194304x8 : Shape := ⟨2, ![4194304, 8]⟩

abbrev nBuf : Space → Nat
  | .hbm => 6
  | .vmem => 6
  | .smem => 0
  | _ => 0

abbrev bufTy : (tb : Table) → Fin (tcTables nBuf tb) → BufTy
  | .hbm, ⟨0, _⟩ => ⟨S4194304x4, .f32⟩
  | .hbm, ⟨1, _⟩ => ⟨S4194304x4, .f32⟩
  | .hbm, ⟨2, _⟩ => ⟨S4x4194304, .f32⟩
  | .hbm, ⟨3, _⟩ => ⟨S4x4194304, .f32⟩
  | .hbm, ⟨4, _⟩ => ⟨S8x4194304, .f32⟩
  | .hbm, ⟨5, _⟩ => ⟨S4194304x8, .f32⟩
  | .local _ .vmem, ⟨0, _⟩ => ⟨S4x131072, .f32⟩
  | .local _ .vmem, ⟨1, _⟩ => ⟨S4x131072, .f32⟩
  | .local _ .vmem, ⟨2, _⟩ => ⟨S4x131072, .f32⟩
  | .local _ .vmem, ⟨3, _⟩ => ⟨S4x131072, .f32⟩
  | .local _ .vmem, ⟨4, _⟩ => ⟨S8x131072, .f32⟩
  | .local _ .vmem, ⟨5, _⟩ => ⟨S8x131072, .f32⟩
  | _, _ => ⟨S4194304x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x131072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x131072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S4194304x4_S4x4194304_1_0 : S4194304x4.Transposes [1, 0] S4x4194304
  inb_S4x131072_S4x131072_0_0 : ∀ a, (![0, 0] : Fin 2 → Nat) a + S4x131072.size a ≤ S4x131072.size a
  h_S4x131072 : 0 < S4x131072.numel
  shapeCasts_S4x131072_S4x131072 : S4x131072.ShapeCasts S4x131072
  slices_S4x131072_o0_0_S1x131072 : S4x131072.Slices ![0, 0] S1x131072
  slices_S4x131072_o1_0_S1x131072 : S4x131072.Slices ![1, 0] S1x131072
  slices_S4x131072_o2_0_S1x131072 : S4x131072.Slices ![2, 0] S1x131072
  slices_S4x131072_o3_0_S1x131072 : S4x131072.Slices ![3, 0] S1x131072
  natLt_1_32 : 1 < 32
  concatenates_S1x131072_S1x131072_S1x131072_S1x131072_S1x131072_S1x131072_S1x131072_S1x131072_S8x131072_d0 : Shape.Concatenates [S1x131072, S1x131072, S1x131072, S1x131072, S1x131072, S1x131072, S1x131072, S1x131072] S8x131072 0
  inb_S8x131072_S8x131072_0_0 : ∀ a, (![0, 0] : Fin 2 → Nat) a + S8x131072.size a ≤ S8x131072.size a
  h_S8x131072 : 0 < S8x131072.numel
  transposes_S8x4194304_S4194304x8_1_0 : S8x4194304.Transposes [1, 0] S4194304x8
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x131072.size a ≤ S4x4194304.size a
  hwx0_0 : ∀ i : grid0.Coords, EltTy.bits .f32 = 32 ∨ (Rect.block (s := S4x4194304) S4x131072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x131072.size a ≤ S4x4194304.size a
  hwx0_1 : ∀ i : grid0.Coords, EltTy.bits .f32 = 32 ∨ (Rect.block (s := S4x4194304) S4x131072.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x131072.size a ≤ S8x4194304.size a
  hwx0_2 : ∀ i : grid0.Coords, EltTy.bits .f32 = 32 ∨ (Rect.block (s := S8x4194304) S8x131072.size (cc0_transform_2 i) (hinb0_2 i)).WholeWords (EltTy.packing .f32)

variable [Facts₀]

abbrev win0_0 : Pipeline.Window sig grid0 :=
  Pipeline.Window.ofSpec (Memref.whole main_v0) S4x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x131072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x131072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4194304x4 : Shape := ⟨2, ![4194304, 4]⟩
abbrev S4194304x1 : Shape := ⟨2, ![4194304, 1]⟩
abbrev S_ : Shape := ⟨0, ![]⟩
abbrev S4194304x8 : Shape := ⟨2, ![4194304, 8]⟩

abbrev nBuf : Space → Nat
  | .hbm => 825
  | .vmem => 0
  | .smem => 0
  | _ => 0

abbrev hbmTy0_0 (i : Nat) : BufTy := match i % 128 with
  | 0 => ⟨S4194304x4, .f32⟩
  | 1 => ⟨S4194304x4, .f32⟩
  | 2 => ⟨S4194304x1, .f32⟩
  | 3 => ⟨S4194304x1, .f32⟩
  | 4 => ⟨S4194304x1, .f32⟩
  | 5 => ⟨S_, .f32⟩
  | 6 => ⟨S4194304x1, .f32⟩
  | 7 => ⟨S4194304x1, .f32⟩
  | 8 => ⟨S_, .f32⟩
  | 9 => ⟨S4194304x1, .f32⟩
  | 10 => ⟨S4194304x1, .i1⟩
  | 11 => ⟨S4194304x1, .f32⟩
  | 12 => ⟨S4194304x1, .f32⟩
  | 13 => ⟨S4194304x1, .f32⟩
  | 14 => ⟨S4194304x1, .f32⟩
  | 15 => ⟨S_, .f32⟩
  | 16 => ⟨S4194304x1, .f32⟩
  | 17 => ⟨S4194304x1, .f32⟩
  | 18 => ⟨S_, .f32⟩
  | 19 => ⟨S4194304x1, .f32⟩
  | 20 => ⟨S4194304x1, .i1⟩
  | 21 => ⟨S4194304x1, .f32⟩
  | 22 => ⟨S4194304x1, .f32⟩
  | 23 => ⟨S4194304x1, .f32⟩
  | 24 => ⟨S4194304x1, .f32⟩
  | 25 => ⟨S_, .f32⟩
  | 26 => ⟨S4194304x1, .f32⟩
  | 27 => ⟨S4194304x1, .f32⟩
  | 28 => ⟨S_, .f32⟩
  | 29 => ⟨S4194304x1, .f32⟩
  | 30 => ⟨S4194304x1, .i1⟩
  | 31 => ⟨S4194304x1, .f32⟩
  | 32 => ⟨S4194304x1, .f32⟩
  | 33 => ⟨S4194304x1, .f32⟩
  | 34 => ⟨S4194304x1, .f32⟩
  | 35 => ⟨S_, .f32⟩
  | 36 => ⟨S4194304x1, .f32⟩
  | 37 => ⟨S4194304x1, .f32⟩
  | 38 => ⟨S_, .f32⟩
  | 39 => ⟨S4194304x1, .f32⟩
  | 40 => ⟨S4194304x1, .i1⟩
  | 41 => ⟨S4194304x1, .f32⟩
  | 42 => ⟨S4194304x1, .f32⟩
  | 43 => ⟨S4194304x1, .f32⟩
  | 44 => ⟨S4194304x1, .f32⟩
  | 45 => ⟨S_, .f32⟩
  | 46 => ⟨S4194304x1, .f32⟩
  | 47 => ⟨S4194304x1, .f32⟩
  | 48 => ⟨S_, .f32⟩
  | 49 => ⟨S4194304x1, .f32⟩
  | 50 => ⟨S4194304x1, .i1⟩
  | 51 => ⟨S4194304x1, .f32⟩
  | 52 => ⟨S4194304x1, .f32⟩
  | 53 => ⟨S4194304x1, .f32⟩
  | 54 => ⟨S4194304x1, .f32⟩
  | 55 => ⟨S_, .f32⟩
  | 56 => ⟨S4194304x1, .f32⟩
  | 57 => ⟨S4194304x1, .f32⟩
  | 58 => ⟨S_, .f32⟩
  | 59 => ⟨S4194304x1, .f32⟩
  | 60 => ⟨S4194304x1, .i1⟩
  | 61 => ⟨S4194304x1, .f32⟩
  | 62 => ⟨S4194304x1, .f32⟩
  | 63 => ⟨S4194304x1, .f32⟩
  | 64 => ⟨S4194304x1, .f32⟩
  | 65 => ⟨S_, .f32⟩
  | 66 => ⟨S4194304x1, .f32⟩
  | 67 => ⟨S4194304x1, .f32⟩
  | 68 => ⟨S_, .f32⟩
  | 69 => ⟨S4194304x1, .f32⟩
  | 70 => ⟨S4194304x1, .i1⟩
  | 71 => ⟨S4194304x1, .f32⟩
  | 72 => ⟨S4194304x1, .f32⟩
  | 73 => ⟨S4194304x1, .f32⟩
  | 74 => ⟨S4194304x1, .f32⟩
  | 75 => ⟨S_, .f32⟩
  | 76 => ⟨S4194304x1, .f32⟩
  | 77 => ⟨S4194304x1, .f32⟩
  | 78 => ⟨S_, .f32⟩
  | 79 => ⟨S4194304x1, .f32⟩
  | 80 => ⟨S4194304x1, .i1⟩
  | 81 => ⟨S4194304x1, .f32⟩
  | 82 => ⟨S4194304x1, .f32⟩
  | 83 => ⟨S4194304x1, .f32⟩
  | 84 => ⟨S4194304x1, .f32⟩
  | 85 => ⟨S_, .f32⟩
  | 86 => ⟨S4194304x1, .f32⟩
  | 87 => ⟨S4194304x1, .f32⟩
  | 88 => ⟨S_, .f32⟩
  | 89 => ⟨S4194304x1, .f32⟩
  | 90 => ⟨S4194304x1, .i1⟩
  | 91 => ⟨S4194304x1, .f32⟩
  | 92 => ⟨S4194304x1, .f32⟩
  | 93 => ⟨S4194304x1, .f32⟩
  | 94 => ⟨S4194304x1, .f32⟩
  | 95 => ⟨S_, .f32⟩
  | 96 => ⟨S4194304x1, .f32⟩
  | 97 => ⟨S4194304x1, .f32⟩
  | 98 => ⟨S_, .f32⟩
  | 99 => ⟨S4194304x1, .f32⟩
  | 100 => ⟨S4194304x1, .i1⟩
  | 101 => ⟨S4194304x1, .f32⟩
  | 102 => ⟨S4194304x1, .f32⟩
  | 103 => ⟨S4194304x1, .f32⟩
  | 104 => ⟨S4194304x1, .f32⟩
  | 105 => ⟨S_, .f32⟩
  | 106 => ⟨S4194304x1, .f32⟩
  | 107 => ⟨S4194304x1, .f32⟩
  | 108 => ⟨S_, .f32⟩
  | 109 => ⟨S4194304x1, .f32⟩
  | 110 => ⟨S4194304x1, .i1⟩
  | 111 => ⟨S4194304x1, .f32⟩
  | 112 => ⟨S4194304x1, .f32⟩
  | 113 => ⟨S4194304x1, .f32⟩
  | 114 => ⟨S4194304x1, .f32⟩
  | 115 => ⟨S_, .f32⟩
  | 116 => ⟨S4194304x1, .f32⟩
  | 117 => ⟨S4194304x1, .f32⟩
  | 118 => ⟨S_, .f32⟩
  | 119 => ⟨S4194304x1, .f32⟩
  | 120 => ⟨S4194304x1, .i1⟩
  | 121 => ⟨S4194304x1, .f32⟩
  | 122 => ⟨S4194304x1, .f32⟩
  | 123 => ⟨S4194304x1, .f32⟩
  | 124 => ⟨S4194304x1, .f32⟩
  | 125 => ⟨S_, .f32⟩
  | 126 => ⟨S4194304x1, .f32⟩
  | 127 => ⟨S4194304x1, .f32⟩
  | _ => ⟨S4194304x4, .f32⟩

abbrev hbmTy0_1 (i : Nat) : BufTy := match i % 128 with
  | 0 => ⟨S_, .f32⟩
  | 1 => ⟨S4194304x1, .f32⟩
  | 2 => ⟨S4194304x1, .i1⟩
  | 3 => ⟨S4194304x1, .f32⟩
  | 4 => ⟨S4194304x1, .f32⟩
  | 5 => ⟨S4194304x1, .f32⟩
  | 6 => ⟨S4194304x1, .f32⟩
  | 7 => ⟨S_, .f32⟩
  | 8 => ⟨S4194304x1, .f32⟩
  | 9 => ⟨S4194304x1, .f32⟩
  | 10 => ⟨S_, .f32⟩
  | 11 => ⟨S4194304x1, .f32⟩
  | 12 => ⟨S4194304x1, .i1⟩
  | 13 => ⟨S4194304x1, .f32⟩
  | 14 => ⟨S4194304x1, .f32⟩
  | 15 => ⟨S4194304x1, .f32⟩
  | 16 => ⟨S4194304x1, .f32⟩
  | 17 => ⟨S_, .f32⟩
  | 18 => ⟨S4194304x1, .f32⟩
  | 19 => ⟨S4194304x1, .f32⟩
  | 20 => ⟨S_, .f32⟩
  | 21 => ⟨S4194304x1, .f32⟩
  | 22 => ⟨S4194304x1, .i1⟩
  | 23 => ⟨S4194304x1, .f32⟩
  | 24 => ⟨S4194304x1, .f32⟩
  | 25 => ⟨S4194304x1, .f32⟩
  | 26 => ⟨S4194304x1, .f32⟩
  | 27 => ⟨S_, .f32⟩
  | 28 => ⟨S4194304x1, .f32⟩
  | 29 => ⟨S4194304x1, .f32⟩
  | 30 => ⟨S_, .f32⟩
  | 31 => ⟨S4194304x1, .f32⟩
  | 32 => ⟨S4194304x1, .i1⟩
  | 33 => ⟨S4194304x1, .f32⟩
  | 34 => ⟨S4194304x1, .f32⟩
  | 35 => ⟨S_, .f32⟩
  | 36 => ⟨S4194304x1, .f32⟩
  | 37 => ⟨S4194304x1, .f32⟩
  | 38 => ⟨S_, .f32⟩
  | 39 => ⟨S4194304x1, .f32⟩
  | 40 => ⟨S4194304x1, .i1⟩
  | 41 => ⟨S4194304x1, .f32⟩
  | 42 => ⟨S4194304x1, .f32⟩
  | 43 => ⟨S_, .f32⟩
  | 44 => ⟨S4194304x1, .f32⟩
  | 45 => ⟨S4194304x1, .f32⟩
  | 46 => ⟨S4194304x1, .f32⟩
  | 47 => ⟨S_, .f32⟩
  | 48 => ⟨S4194304x1, .f32⟩
  | 49 => ⟨S4194304x1, .f32⟩
  | 50 => ⟨S_, .f32⟩
  | 51 => ⟨S4194304x1, .f32⟩
  | 52 => ⟨S4194304x1, .i1⟩
  | 53 => ⟨S4194304x1, .f32⟩
  | 54 => ⟨S4194304x1, .f32⟩
  | 55 => ⟨S_, .f32⟩
  | 56 => ⟨S4194304x1, .f32⟩
  | 57 => ⟨S4194304x1, .f32⟩
  | 58 => ⟨S_, .f32⟩
  | 59 => ⟨S4194304x1, .f32⟩
  | 60 => ⟨S4194304x1, .i1⟩
  | 61 => ⟨S4194304x1, .f32⟩
  | 62 => ⟨S4194304x1, .f32⟩
  | 63 => ⟨S_, .f32⟩
  | 64 => ⟨S4194304x1, .f32⟩
  | 65 => ⟨S4194304x1, .f32⟩
  | 66 => ⟨S_, .f32⟩
  | 67 => ⟨S4194304x1, .f32⟩
  | 68 => ⟨S4194304x1, .i1⟩
  | 69 => ⟨S4194304x1, .f32⟩
  | 70 => ⟨S4194304x1, .f32⟩
  | 71 => ⟨S_, .f32⟩
  | 72 => ⟨S4194304x1, .f32⟩
  | 73 => ⟨S4194304x1, .f32⟩
  | 74 => ⟨S4194304x1, .f32⟩
  | 75 => ⟨S_, .f32⟩
  | 76 => ⟨S4194304x1, .f32⟩
  | 77 => ⟨S4194304x1, .f32⟩
  | 78 => ⟨S_, .f32⟩
  | 79 => ⟨S4194304x1, .f32⟩
  | 80 => ⟨S4194304x1, .i1⟩
  | 81 => ⟨S4194304x1, .f32⟩
  | 82 => ⟨S4194304x1, .f32⟩
  | 83 => ⟨S_, .f32⟩
  | 84 => ⟨S4194304x1, .f32⟩
  | 85 => ⟨S4194304x1, .f32⟩
  | 86 => ⟨S_, .f32⟩
  | 87 => ⟨S4194304x1, .f32⟩
  | 88 => ⟨S4194304x1, .i1⟩
  | 89 => ⟨S4194304x1, .f32⟩
  | 90 => ⟨S4194304x1, .f32⟩
  | 91 => ⟨S_, .f32⟩
  | 92 => ⟨S4194304x1, .f32⟩
  | 93 => ⟨S4194304x1, .f32⟩
  | 94 => ⟨S4194304x1, .f32⟩
  | 95 => ⟨S_, .f32⟩
  | 96 => ⟨S4194304x1, .f32⟩
  | 97 => ⟨S4194304x1, .f32⟩
  | 98 => ⟨S_, .f32⟩
  | 99 => ⟨S4194304x1, .f32⟩
  | 100 => ⟨S4194304x1, .i1⟩
  | 101 => ⟨S4194304x1, .f32⟩
  | 102 => ⟨S4194304x1, .f32⟩
  | 103 => ⟨S_, .f32⟩
  | 104 => ⟨S4194304x1, .f32⟩
  | 105 => ⟨S4194304x1, .f32⟩
  | 106 => ⟨S_, .f32⟩
  | 107 => ⟨S4194304x1, .f32⟩
  | 108 => ⟨S4194304x1, .i1⟩
  | 109 => ⟨S4194304x1, .f32⟩
  | 110 => ⟨S4194304x1, .f32⟩
  | 111 => ⟨S_, .f32⟩
  | 112 => ⟨S4194304x1, .f32⟩
  | 113 => ⟨S4194304x1, .f32⟩
  | 114 => ⟨S_, .f32⟩
  | 115 => ⟨S4194304x1, .f32⟩
  | 116 => ⟨S4194304x1, .i1⟩
  | 117 => ⟨S4194304x1, .f32⟩
  | 118 => ⟨S4194304x1, .f32⟩
  | 119 => ⟨S_, .f32⟩
  | 120 => ⟨S4194304x1, .f32⟩
  | 121 => ⟨S4194304x1, .f32⟩
  | 122 => ⟨S_, .f32⟩
  | 123 => ⟨S4194304x1, .f32⟩
  | 124 => ⟨S4194304x1, .i1⟩
  | 125 => ⟨S4194304x1, .f32⟩
  | 126 => ⟨S4194304x1, .f32⟩
  | 127 => ⟨S_, .f32⟩
  | _ => ⟨S4194304x4, .f32⟩

abbrev hbmTy0_2 (i : Nat) : BufTy := match i % 128 with
  | 0 => ⟨S4194304x1, .f32⟩
  | 1 => ⟨S4194304x1, .f32⟩
  | 2 => ⟨S_, .f32⟩
  | 3 => ⟨S4194304x1, .f32⟩
  | 4 => ⟨S4194304x1, .i1⟩
  | 5 => ⟨S4194304x1, .f32⟩
  | 6 => ⟨S4194304x1, .f32⟩
  | 7 => ⟨S_, .f32⟩
  | 8 => ⟨S4194304x1, .f32⟩
  | 9 => ⟨S4194304x1, .f32⟩
  | 10 => ⟨S4194304x1, .f32⟩
  | 11 => ⟨S_, .f32⟩
  | 12 => ⟨S4194304x1, .f32⟩
  | 13 => ⟨S4194304x1, .f32⟩
  | 14 => ⟨S_, .f32⟩
  | 15 => ⟨S4194304x1, .f32⟩
  | 16 => ⟨S4194304x1, .i1⟩
  | 17 => ⟨S4194304x1, .f32⟩
  | 18 => ⟨S4194304x1, .f32⟩
  | 19 => ⟨S_, .f32⟩
  | 20 => ⟨S4194304x1, .f32⟩
  | 21 => ⟨S4194304x1, .f32⟩
  | 22 => ⟨S_, .f32⟩
  | 23 => ⟨S4194304x1, .f32⟩
  | 24 => ⟨S4194304x1, .i1⟩
  | 25 => ⟨S4194304x1, .f32⟩
  | 26 => ⟨S4194304x1, .f32⟩
  | 27 => ⟨S_, .f32⟩
  | 28 => ⟨S4194304x1, .f32⟩
  | 29 => ⟨S4194304x1, .f32⟩
  | 30 => ⟨S4194304x1, .f32⟩
  | 31 => ⟨S_, .f32⟩
  | 32 => ⟨S4194304x1, .f32⟩
  | 33 => ⟨S4194304x1, .f32⟩
  | 34 => ⟨S_, .f32⟩
  | 35 => ⟨S4194304x1, .f32⟩
  | 36 => ⟨S4194304x1, .i1⟩
  | 37 => ⟨S4194304x1, .f32⟩
  | 38 => ⟨S4194304x1, .f32⟩
  | 39 => ⟨S_, .f32⟩
  | 40 => ⟨S4194304x1, .f32⟩
  | 41 => ⟨S4194304x1, .f32⟩
  | 42 => ⟨S_, .f32⟩
  | 43 => ⟨S4194304x1, .f32⟩
  | 44 => ⟨S4194304x1, .i1⟩
  | 45 => ⟨S4194304x1, .f32⟩
  | 46 => ⟨S4194304x1, .f32⟩
  | 47 => ⟨S_, .f32⟩
  | 48 => ⟨S4194304x1, .f32⟩
  | 49 => ⟨S4194304x1, .f32⟩
  | 50 => ⟨S_, .f32⟩
  | 51 => ⟨S4194304x1, .f32⟩
  | 52 => ⟨S4194304x1, .i1⟩
  | 53 => ⟨S4194304x1, .f32⟩
  | 54 => ⟨S4194304x1, .f32⟩
  | 55 => ⟨S_, .f32⟩
  | 56 => ⟨S4194304x1, .f32⟩
  | 57 => ⟨S4194304x1, .f32⟩
  | 58 => ⟨S_, .f32⟩
  | 59 => ⟨S4194304x1, .f32⟩
  | 60 => ⟨S4194304x1, .i1⟩
  | 61 => ⟨S4194304x1, .f32⟩
  | 62 => ⟨S_, .f32⟩
  | 63 => ⟨S4194304x1, .f32⟩
  | 64 => ⟨S4194304x1, .f32⟩
  | 65 => ⟨S_, .f32⟩
  | 66 => ⟨S4194304x1, .f32⟩
  | 67 => ⟨S4194304x1, .f32⟩
  | 68 => ⟨S_, .f32⟩
  | 69 => ⟨S4194304x1, .f32⟩
  | 70 => ⟨S4194304x1, .i1⟩
  | 71 => ⟨S4194304x1, .f32⟩
  | 72 => ⟨S4194304x1, .f32⟩
  | 73 => ⟨S_, .f32⟩
  | 74 => ⟨S4194304x1, .f32⟩
  | 75 => ⟨S4194304x1, .f32⟩
  | 76 => ⟨S4194304x1, .f32⟩
  | 77 => ⟨S_, .f32⟩
  | 78 => ⟨S4194304x1, .f32⟩
  | 79 => ⟨S4194304x1, .f32⟩
  | 80 => ⟨S_, .f32⟩
  | 81 => ⟨S4194304x1, .f32⟩
  | 82 => ⟨S4194304x1, .i1⟩
  | 83 => ⟨S4194304x1, .f32⟩
  | 84 => ⟨S4194304x1, .f32⟩
  | 85 => ⟨S_, .f32⟩
  | 86 => ⟨S4194304x1, .f32⟩
  | 87 => ⟨S4194304x1, .f32⟩
  | 88 => ⟨S_, .f32⟩
  | 89 => ⟨S4194304x1, .f32⟩
  | 90 => ⟨S4194304x1, .i1⟩
  | 91 => ⟨S4194304x1, .f32⟩
  | 92 => ⟨S4194304x1, .f32⟩
  | 93 => ⟨S_, .f32⟩
  | 94 => ⟨S4194304x1, .f32⟩
  | 95 => ⟨S4194304x1, .f32⟩
  | 96 => ⟨S4194304x1, .f32⟩
  | 97 => ⟨S_, .f32⟩
  | 98 => ⟨S4194304x1, .f32⟩
  | 99 => ⟨S4194304x1, .f32⟩
  | 100 => ⟨S_, .f32⟩
  | 101 => ⟨S4194304x1, .f32⟩
  | 102 => ⟨S4194304x1, .i1⟩
  | 103 => ⟨S4194304x1, .f32⟩
  | 104 => ⟨S4194304x1, .f32⟩
  | 105 => ⟨S_, .f32⟩
  | 106 => ⟨S4194304x1, .f32⟩
  | 107 => ⟨S4194304x1, .f32⟩
  | 108 => ⟨S_, .f32⟩
  | 109 => ⟨S4194304x1, .f32⟩
  | 110 => ⟨S4194304x1, .i1⟩
  | 111 => ⟨S4194304x1, .f32⟩
  | 112 => ⟨S4194304x1, .f32⟩
  | 113 => ⟨S_, .f32⟩
  | 114 => ⟨S4194304x1, .f32⟩
  | 115 => ⟨S4194304x1, .f32⟩
  | 116 => ⟨S_, .f32⟩
  | 117 => ⟨S4194304x1, .f32⟩
  | 118 => ⟨S4194304x1, .i1⟩
  | 119 => ⟨S4194304x1, .f32⟩
  | 120 => ⟨S4194304x1, .f32⟩
  | 121 => ⟨S_, .f32⟩
  | 122 => ⟨S4194304x1, .f32⟩
  | 123 => ⟨S4194304x1, .f32⟩
  | 124 => ⟨S_, .f32⟩
  | 125 => ⟨S4194304x1, .f32⟩
  | 126 => ⟨S4194304x1, .i1⟩
  | 127 => ⟨S4194304x1, .f32⟩
  | _ => ⟨S4194304x4, .f32⟩

abbrev hbmTy0_3 (i : Nat) : BufTy := match i % 128 with
  | 0 => ⟨S4194304x1, .f32⟩
  | 1 => ⟨S_, .f32⟩
  | 2 => ⟨S4194304x1, .f32⟩
  | 3 => ⟨S4194304x1, .f32⟩
  | 4 => ⟨S_, .f32⟩
  | 5 => ⟨S4194304x1, .f32⟩
  | 6 => ⟨S4194304x1, .i1⟩
  | 7 => ⟨S4194304x1, .f32⟩
  | 8 => ⟨S4194304x1, .f32⟩
  | 9 => ⟨S_, .f32⟩
  | 10 => ⟨S4194304x1, .f32⟩
  | 11 => ⟨S4194304x1, .f32⟩
  | 12 => ⟨S4194304x1, .f32⟩
  | 13 => ⟨S_, .f32⟩
  | 14 => ⟨S4194304x1, .f32⟩
  | 15 => ⟨S4194304x1, .f32⟩
  | 16 => ⟨S_, .f32⟩
  | 17 => ⟨S4194304x1, .f32⟩
  | 18 => ⟨S4194304x1, .i1⟩
  | 19 => ⟨S4194304x1, .f32⟩
  | 20 => ⟨S4194304x1, .f32⟩
  | 21 => ⟨S_, .f32⟩
  | 22 => ⟨S4194304x1, .f32⟩
  | 23 => ⟨S4194304x1, .f32⟩
  | 24 => ⟨S_, .f32⟩
  | 25 => ⟨S4194304x1, .f32⟩
  | 26 => ⟨S4194304x1, .i1⟩
  | 27 => ⟨S4194304x1, .f32⟩
  | 28 => ⟨S4194304x1, .f32⟩
  | 29 => ⟨S_, .f32⟩
  | 30 => ⟨S4194304x1, .f32⟩
  | 31 => ⟨S4194304x1, .f32⟩
  | 32 => ⟨S_, .f32⟩
  | 33 => ⟨S4194304x1, .f32⟩
  | 34 => ⟨S4194304x1, .i1⟩
  | 35 => ⟨S4194304x1, .f32⟩
  | 36 => ⟨S4194304x1, .f32⟩
  | 37 => ⟨S_, .f32⟩
  | 38 => ⟨S4194304x1, .f32⟩
  | 39 => ⟨S4194304x1, .f32⟩
  | 40 => ⟨S4194304x1, .f32⟩
  | 41 => ⟨S_, .f32⟩
  | 42 => ⟨S4194304x1, .f32⟩
  | 43 => ⟨S4194304x1, .f32⟩
  | 44 => ⟨S_, .f32⟩
  | 45 => ⟨S4194304x1, .f32⟩
  | 46 => ⟨S4194304x1, .i1⟩
  | 47 => ⟨S4194304x1, .f32⟩
  | 48 => ⟨S4194304x1, .f32⟩
  | 49 => ⟨S_, .f32⟩
  | 50 => ⟨S4194304x1, .f32⟩
  | 51 => ⟨S4194304x1, .f32⟩
  | 52 => ⟨S_, .f32⟩
  | 53 => ⟨S4194304x1, .f32⟩
  | 54 => ⟨S4194304x1, .i1⟩
  | 55 => ⟨S4194304x1, .f32⟩
  | 56 => ⟨S4194304x1, .f32⟩
  | 57 => ⟨S_, .f32⟩
  | 58 => ⟨S4194304x1, .f32⟩
  | 59 => ⟨S4194304x1, .f32⟩
  | 60 => ⟨S4194304x1, .f32⟩
  | 61 => ⟨S_, .f32⟩
  | 62 => ⟨S4194304x1, .f32⟩
  | 63 => ⟨S4194304x1, .f32⟩
  | 64 => ⟨S_, .f32⟩
  | 65 => ⟨S4194304x1, .f32⟩
  | 66 => ⟨S4194304x1, .i1⟩
  | 67 => ⟨S4194304x1, .f32⟩
  | 68 => ⟨S4194304x1, .f32⟩
  | 69 => ⟨S_, .f32⟩
  | 70 => ⟨S4194304x1, .f32⟩
  | 71 => ⟨S4194304x1, .f32⟩
  | 72 => ⟨S_, .f32⟩
  | 73 => ⟨S4194304x1, .f32⟩
  | 74 => ⟨S4194304x1, .i1⟩
  | 75 => ⟨S4194304x1, .f32⟩
  | 76 => ⟨S4194304x1, .f32⟩
  | 77 => ⟨S_, .f32⟩
  | 78 => ⟨S4194304x1, .f32⟩
  | 79 => ⟨S4194304x1, .f32⟩
  | 80 => ⟨S_, .f32⟩
  | 81 => ⟨S4194304x1, .f32⟩
  | 82 => ⟨S4194304x1, .i1⟩
  | 83 => ⟨S4194304x1, .f32⟩
  | 84 => ⟨S4194304x1, .f32⟩
  | 85 => ⟨S_, .f32⟩
  | 86 => ⟨S4194304x1, .f32⟩
  | 87 => ⟨S4194304x1, .f32⟩
  | 88 => ⟨S_, .f32⟩
  | 89 => ⟨S4194304x1, .f32⟩
  | 90 => ⟨S4194304x1, .i1⟩
  | 91 => ⟨S4194304x1, .f32⟩
  | 92 => ⟨S4194304x1, .f32⟩
  | 93 => ⟨S_, .f32⟩
  | 94 => ⟨S4194304x1, .f32⟩
  | 95 => ⟨S4194304x1, .f32⟩
  | 96 => ⟨S_, .f32⟩
  | 97 => ⟨S4194304x1, .f32⟩
  | 98 => ⟨S4194304x1, .i1⟩
  | 99 => ⟨S4194304x1, .f32⟩
  | 100 => ⟨S4194304x1, .f32⟩
  | 101 => ⟨S_, .f32⟩
  | 102 => ⟨S4194304x1, .f32⟩
  | 103 => ⟨S4194304x1, .f32⟩
  | 104 => ⟨S4194304x1, .f32⟩
  | 105 => ⟨S_, .f32⟩
  | 106 => ⟨S4194304x1, .f32⟩
  | 107 => ⟨S4194304x1, .f32⟩
  | 108 => ⟨S_, .f32⟩
  | 109 => ⟨S4194304x1, .f32⟩
  | 110 => ⟨S4194304x1, .i1⟩
  | 111 => ⟨S4194304x1, .f32⟩
  | 112 => ⟨S4194304x1, .f32⟩
  | 113 => ⟨S_, .f32⟩
  | 114 => ⟨S4194304x1, .f32⟩
  | 115 => ⟨S4194304x1, .f32⟩
  | 116 => ⟨S_, .f32⟩
  | 117 => ⟨S4194304x1, .f32⟩
  | 118 => ⟨S4194304x1, .i1⟩
  | 119 => ⟨S4194304x1, .f32⟩
  | 120 => ⟨S4194304x1, .f32⟩
  | 121 => ⟨S_, .f32⟩
  | 122 => ⟨S4194304x1, .f32⟩
  | 123 => ⟨S4194304x1, .f32⟩
  | 124 => ⟨S4194304x1, .f32⟩
  | 125 => ⟨S_, .f32⟩
  | 126 => ⟨S4194304x1, .f32⟩
  | 127 => ⟨S4194304x1, .f32⟩
  | _ => ⟨S4194304x4, .f32⟩

abbrev hbmTy0_4 (i : Nat) : BufTy := match i % 128 with
  | 0 => ⟨S_, .f32⟩
  | 1 => ⟨S4194304x1, .f32⟩
  | 2 => ⟨S4194304x1, .i1⟩
  | 3 => ⟨S4194304x1, .f32⟩
  | 4 => ⟨S4194304x1, .f32⟩
  | 5 => ⟨S_, .f32⟩
  | 6 => ⟨S4194304x1, .f32⟩
  | 7 => ⟨S4194304x1, .f32⟩
  | 8 => ⟨S_, .f32⟩
  | 9 => ⟨S4194304x1, .f32⟩
  | 10 => ⟨S4194304x1, .i1⟩
  | 11 => ⟨S4194304x1, .f32⟩
  | 12 => ⟨S4194304x1, .f32⟩
  | 13 => ⟨S_, .f32⟩
  | 14 => ⟨S4194304x1, .f32⟩
  | 15 => ⟨S4194304x1, .f32⟩
  | 16 => ⟨S_, .f32⟩
  | 17 => ⟨S4194304x1, .f32⟩
  | 18 => ⟨S4194304x1, .i1⟩
  | 19 => ⟨S4194304x1, .f32⟩
  | 20 => ⟨S4194304x1, .f32⟩
  | 21 => ⟨S_, .f32⟩
  | 22 => ⟨S4194304x1, .f32⟩
  | 23 => ⟨S4194304x1, .f32⟩
  | 24 => ⟨S_, .f32⟩
  | 25 => ⟨S4194304x1, .f32⟩
  | 26 => ⟨S4194304x1, .i1⟩
  | 27 => ⟨S4194304x1, .f32⟩
  | 28 => ⟨S4194304x1, .f32⟩
  | 29 => ⟨S_, .f32⟩
  | 30 => ⟨S4194304x1, .f32⟩
  | 31 => ⟨S4194304x1, .f32⟩
  | 32 => ⟨S_, .f32⟩
  | 33 => ⟨S4194304x1, .f32⟩
  | 34 => ⟨S4194304x1, .i1⟩
  | 35 => ⟨S4194304x1, .f32⟩
  | 36 => ⟨S4194304x1, .f32⟩
  | 37 => ⟨S_, .f32⟩
  | 38 => ⟨S4194304x1, .f32⟩
  | 39 => ⟨S4194304x1, .f32⟩
  | 40 => ⟨S4194304x1, .f32⟩
  | 41 => ⟨S_, .f32⟩
  | 42 => ⟨S4194304x1, .f32⟩
  | 43 => ⟨S4194304x1, .f32⟩
  | 44 => ⟨S_, .f32⟩
  | 45 => ⟨S4194304x1, .f32⟩
  | 46 => ⟨S4194304x1, .i1⟩
  | 47 => ⟨S4194304x1, .f32⟩
  | 48 => ⟨S4194304x1, .f32⟩
  | 49 => ⟨S_, .f32⟩
  | 50 => ⟨S4194304x1, .f32⟩
  | 51 => ⟨S4194304x1, .f32⟩
  | 52 => ⟨S_, .f32⟩
  | 53 => ⟨S4194304x1, .f32⟩
  | 54 => ⟨S4194304x1, .i1⟩
  | 55 => ⟨S4194304x1, .f32⟩
  | 56 => ⟨S4194304x1, .f32⟩
  | 57 => ⟨S_, .f32⟩
  | 58 => ⟨S4194304x1, .f32⟩
  | 59 => ⟨S4194304x1, .f32⟩
  | 60 => ⟨S4194304x1, .f32⟩
  | 61 => ⟨S_, .f32⟩
  | 62 => ⟨S4194304x1, .f32⟩
  | 63 => ⟨S4194304x1, .f32⟩
  | 64 => ⟨S_, .f32⟩
  | 65 => ⟨S4194304x1, .f32⟩
  | 66 => ⟨S4194304x1, .i1⟩
  | 67 => ⟨S4194304x1, .f32⟩
  | 68 => ⟨S4194304x1, .f32⟩
  | 69 => ⟨S_, .f32⟩
  | 70 => ⟨S4194304x1, .f32⟩
  | 71 => ⟨S4194304x1, .f32⟩
  | 72 => ⟨S_, .f32⟩
  | 73 => ⟨S4194304x1, .f32⟩
  | 74 => ⟨S4194304x1, .i1⟩
  | 75 => ⟨S4194304x1, .f32⟩
  | 76 => ⟨S4194304x1, .f32⟩
  | 77 => ⟨S_, .f32⟩
  | 78 => ⟨S4194304x1, .f32⟩
  | 79 => ⟨S4194304x1, .f32⟩
  | 80 => ⟨S_, .f32⟩
  | 81 => ⟨S4194304x1, .f32⟩
  | 82 => ⟨S4194304x1, .i1⟩
  | 83 => ⟨S4194304x1, .f32⟩
  | 84 => ⟨S4194304x1, .f32⟩
  | 85 => ⟨S_, .f32⟩
  | 86 => ⟨S4194304x1, .f32⟩
  | 87 => ⟨S4194304x1, .f32⟩
  | 88 => ⟨S_, .f32⟩
  | 89 => ⟨S4194304x1, .f32⟩
  | 90 => ⟨S4194304x1, .i1⟩
  | 91 => ⟨S4194304x1, .f32⟩
  | 92 => ⟨S4194304x1, .f32⟩
  | 93 => ⟨S_, .f32⟩
  | 94 => ⟨S4194304x1, .f32⟩
  | 95 => ⟨S4194304x1, .f32⟩
  | 96 => ⟨S_, .f32⟩
  | 97 => ⟨S4194304x1, .f32⟩
  | 98 => ⟨S4194304x1, .i1⟩
  | 99 => ⟨S4194304x1, .f32⟩
  | 100 => ⟨S4194304x1, .f32⟩
  | 101 => ⟨S_, .f32⟩
  | 102 => ⟨S4194304x1, .f32⟩
  | 103 => ⟨S4194304x1, .f32⟩
  | 104 => ⟨S4194304x1, .f32⟩
  | 105 => ⟨S_, .f32⟩
  | 106 => ⟨S4194304x1, .f32⟩
  | 107 => ⟨S4194304x1, .f32⟩
  | 108 => ⟨S_, .f32⟩
  | 109 => ⟨S4194304x1, .f32⟩
  | 110 => ⟨S4194304x1, .i1⟩
  | 111 => ⟨S4194304x1, .f32⟩
  | 112 => ⟨S4194304x1, .f32⟩
  | 113 => ⟨S_, .f32⟩
  | 114 => ⟨S4194304x1, .f32⟩
  | 115 => ⟨S4194304x1, .f32⟩
  | 116 => ⟨S_, .f32⟩
  | 117 => ⟨S4194304x1, .f32⟩
  | 118 => ⟨S4194304x1, .i1⟩
  | 119 => ⟨S4194304x1, .f32⟩
  | 120 => ⟨S4194304x1, .f32⟩
  | 121 => ⟨S_, .f32⟩
  | 122 => ⟨S4194304x1, .f32⟩
  | 123 => ⟨S4194304x1, .f32⟩
  | 124 => ⟨S_, .f32⟩
  | 125 => ⟨S4194304x1, .f32⟩
  | 126 => ⟨S4194304x1, .i1⟩
  | 127 => ⟨S4194304x1, .f32⟩
  | _ => ⟨S4194304x4, .f32⟩

abbrev hbmTy0_5 (i : Nat) : BufTy := match i % 128 with
  | 0 => ⟨S4194304x1, .f32⟩
  | 1 => ⟨S_, .f32⟩
  | 2 => ⟨S4194304x1, .f32⟩
  | 3 => ⟨S4194304x1, .f32⟩
  | 4 => ⟨S4194304x1, .f32⟩
  | 5 => ⟨S_, .f32⟩
  | 6 => ⟨S4194304x1, .f32⟩
  | 7 => ⟨S4194304x1, .f32⟩
  | 8 => ⟨S_, .f32⟩
  | 9 => ⟨S4194304x1, .f32⟩
  | 10 => ⟨S4194304x1, .i1⟩
  | 11 => ⟨S4194304x1, .f32⟩
  | 12 => ⟨S4194304x1, .f32⟩
  | 13 => ⟨S_, .f32⟩
  | 14 => ⟨S4194304x1, .f32⟩
  | 15 => ⟨S4194304x1, .f32⟩
  | 16 => ⟨S_, .f32⟩
  | 17 => ⟨S4194304x1, .f32⟩
  | 18 => ⟨S4194304x1, .i1⟩
  | 19 => ⟨S4194304x1, .f32⟩
  | 20 => ⟨S4194304x1, .f32⟩
  | 21 => ⟨S_, .f32⟩
  | 22 => ⟨S4194304x1, .f32⟩
  | 23 => ⟨S4194304x1, .f32⟩
  | 24 => ⟨S4194304x1, .f32⟩
  | 25 => ⟨S_, .f32⟩
  | 26 => ⟨S4194304x1, .f32⟩
  | 27 => ⟨S4194304x1, .f32⟩
  | 28 => ⟨S_, .f32⟩
  | 29 => ⟨S4194304x1, .f32⟩
  | 30 => ⟨S4194304x1, .i1⟩
  | 31 => ⟨S4194304x1, .f32⟩
  | 32 => ⟨S4194304x1, .f32⟩
  | 33 => ⟨S_, .f32⟩
  | 34 => ⟨S4194304x1, .f32⟩
  | 35 => ⟨S4194304x1, .f32⟩
  | 36 => ⟨S_, .f32⟩
  | 37 => ⟨S4194304x1, .f32⟩
  | 38 => ⟨S4194304x1, .i1⟩
  | 39 => ⟨S4194304x1, .f32⟩
  | 40 => ⟨S4194304x1, .f32⟩
  | 41 => ⟨S_, .f32⟩
  | 42 => ⟨S4194304x1, .f32⟩
  | 43 => ⟨S4194304x1, .f32⟩
  | 44 => ⟨S_, .f32⟩
  | 45 => ⟨S4194304x1, .f32⟩
  | 46 => ⟨S4194304x1, .i1⟩
  | 47 => ⟨S4194304x1, .f32⟩
  | 48 => ⟨S4194304x1, .f32⟩
  | 49 => ⟨S_, .f32⟩
  | 50 => ⟨S4194304x1, .f32⟩
  | 51 => ⟨S4194304x1, .f32⟩
  | 52 => ⟨S_, .f32⟩
  | 53 => ⟨S4194304x1, .f32⟩
  | 54 => ⟨S4194304x1, .i1⟩
  | 55 => ⟨S4194304x1, .f32⟩
  | 56 => ⟨S4194304x1, .f32⟩
  | 57 => ⟨S_, .f32⟩
  | 58 => ⟨S4194304x1, .f32⟩
  | 59 => ⟨S4194304x1, .f32⟩
  | 60 => ⟨S_, .f32⟩
  | 61 => ⟨S4194304x1, .f32⟩
  | 62 => ⟨S4194304x1, .i1⟩
  | 63 => ⟨S4194304x1, .f32⟩
  | 64 => ⟨S4194304x1, .f32⟩
  | 65 => ⟨S_, .f32⟩
  | 66 => ⟨S4194304x1, .f32⟩
  | 67 => ⟨S4194304x1, .f32⟩
  | 68 => ⟨S4194304x1, .f32⟩
  | 69 => ⟨S_, .f32⟩
  | 70 => ⟨S4194304x1, .f32⟩
  | 71 => ⟨S4194304x1, .f32⟩
  | 72 => ⟨S_, .f32⟩
  | 73 => ⟨S4194304x1, .f32⟩
  | 74 => ⟨S4194304x1, .i1⟩
  | 75 => ⟨S4194304x1, .f32⟩
  | 76 => ⟨S4194304x1, .f32⟩
  | 77 => ⟨S_, .f32⟩
  | 78 => ⟨S4194304x1, .f32⟩
  | 79 => ⟨S4194304x1, .f32⟩
  | 80 => ⟨S_, .f32⟩
  | 81 => ⟨S4194304x1, .f32⟩
  | 82 => ⟨S4194304x1, .i1⟩
  | 83 => ⟨S4194304x1, .f32⟩
  | 84 => ⟨S4194304x1, .f32⟩
  | 85 => ⟨S_, .f32⟩
  | 86 => ⟨S4194304x1, .f32⟩
  | 87 => ⟨S4194304x1, .f32⟩
  | 88 => ⟨S4194304x1, .f32⟩
  | 89 => ⟨S_, .f32⟩
  | 90 => ⟨S4194304x1, .f32⟩
  | 91 => ⟨S4194304x1, .f32⟩
  | 92 => ⟨S_, .f32⟩
  | 93 => ⟨S4194304x1, .f32⟩
  | 94 => ⟨S4194304x1, .i1⟩
  | 95 => ⟨S4194304x1, .f32⟩
  | 96 => ⟨S4194304x1, .f32⟩
  | 97 => ⟨S_, .f32⟩
  | 98 => ⟨S4194304x1, .f32⟩
  | 99 => ⟨S4194304x1, .f32⟩
  | 100 => ⟨S_, .f32⟩
  | 101 => ⟨S4194304x1, .f32⟩
  | 102 => ⟨S4194304x1, .i1⟩
  | 103 => ⟨S4194304x1, .f32⟩
  | 104 => ⟨S4194304x1, .f32⟩
  | 105 => ⟨S_, .f32⟩
  | 106 => ⟨S4194304x1, .f32⟩
  | 107 => ⟨S4194304x1, .f32⟩
  | 108 => ⟨S_, .f32⟩
  | 109 => ⟨S4194304x1, .f32⟩
  | 110 => ⟨S4194304x1, .i1⟩
  | 111 => ⟨S4194304x1, .f32⟩
  | 112 => ⟨S4194304x1, .f32⟩
  | 113 => ⟨S_, .f32⟩
  | 114 => ⟨S4194304x1, .f32⟩
  | 115 => ⟨S4194304x1, .f32⟩
  | 116 => ⟨S_, .f32⟩
  | 117 => ⟨S4194304x1, .f32⟩
  | 118 => ⟨S4194304x1, .i1⟩
  | 119 => ⟨S4194304x1, .f32⟩
  | 120 => ⟨S4194304x1, .f32⟩
  | 121 => ⟨S_, .f32⟩
  | 122 => ⟨S4194304x1, .f32⟩
  | 123 => ⟨S4194304x1, .f32⟩
  | 124 => ⟨S_, .f32⟩
  | 125 => ⟨S4194304x1, .f32⟩
  | 126 => ⟨S4194304x1, .i1⟩
  | 127 => ⟨S4194304x1, .f32⟩
  | _ => ⟨S4194304x4, .f32⟩

abbrev hbmTy0_6 (i : Nat) : BufTy := match i % 128 with
  | 0 => ⟨S4194304x1, .f32⟩
  | 1 => ⟨S_, .f32⟩
  | 2 => ⟨S4194304x1, .f32⟩
  | 3 => ⟨S4194304x1, .f32⟩
  | 4 => ⟨S4194304x1, .f32⟩
  | 5 => ⟨S_, .f32⟩
  | 6 => ⟨S4194304x1, .f32⟩
  | 7 => ⟨S4194304x1, .f32⟩
  | 8 => ⟨S_, .f32⟩
  | 9 => ⟨S4194304x1, .f32⟩
  | 10 => ⟨S4194304x1, .i1⟩
  | 11 => ⟨S4194304x1, .f32⟩
  | 12 => ⟨S4194304x1, .f32⟩
  | 13 => ⟨S_, .f32⟩
  | 14 => ⟨S4194304x1, .f32⟩
  | 15 => ⟨S4194304x1, .f32⟩
  | 16 => ⟨S_, .f32⟩
  | 17 => ⟨S4194304x1, .f32⟩
  | 18 => ⟨S4194304x1, .i1⟩
  | 19 => ⟨S4194304x1, .f32⟩
  | 20 => ⟨S4194304x1, .f32⟩
  | 21 => ⟨S_, .f32⟩
  | 22 => ⟨S4194304x1, .f32⟩
  | 23 => ⟨S4194304x1, .f32⟩
  | 24 => ⟨S4194304x1, .f32⟩
  | 25 => ⟨S_, .f32⟩
  | 26 => ⟨S4194304x1, .f32⟩
  | 27 => ⟨S4194304x1, .f32⟩
  | 28 => ⟨S_, .f32⟩
  | 29 => ⟨S4194304x1, .f32⟩
  | 30 => ⟨S4194304x1, .i1⟩
  | 31 => ⟨S4194304x1, .f32⟩
  | 32 => ⟨S4194304x1, .f32⟩
  | 33 => ⟨S_, .f32⟩
  | 34 => ⟨S4194304x1, .f32⟩
  | 35 => ⟨S4194304x1, .f32⟩
  | 36 => ⟨S_, .f32⟩
  | 37 => ⟨S4194304x1, .f32⟩
  | 38 => ⟨S4194304x1, .i1⟩
  | 39 => ⟨S4194304x1, .f32⟩
  | 40 => ⟨S4194304x1, .f32⟩
  | 41 => ⟨S_, .f32⟩
  | 42 => ⟨S4194304x1, .f32⟩
  | 43 => ⟨S4194304x1, .f32⟩
  | 44 => ⟨S_, .f32⟩
  | 45 => ⟨S4194304x1, .f32⟩
  | 46 => ⟨S4194304x1, .i1⟩
  | 47 => ⟨S4194304x1, .f32⟩
  | 48 => ⟨S4194304x1, .f32⟩
  | 49 => ⟨S_, .f32⟩
  | 50 => ⟨S4194304x1, .f32⟩
  | 51 => ⟨S4194304x1, .f32⟩
  | 52 => ⟨S_, .f32⟩
  | 53 => ⟨S4194304x1, .f32⟩
  | 54 => ⟨S4194304x1, .i1⟩
  | 55 => ⟨S4194304x1, .f32⟩
  | 56 => ⟨S4194304x8, .f32⟩
  | _ => ⟨S4194304x4, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4194304x4, .f32⟩

abbrev bufTy : (tb : Table) → Fin (tcTables nBuf tb) → BufTy
  | .hbm, ⟨i, _⟩ => hbmTy i
  | _, _ => ⟨S4194304x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_7 : Ref sig .tc := ⟨.hbm, 45, rfl⟩
abbrev main_v35 : Ref sig .tc := ⟨.hbm, 46, rfl⟩
abbrev main_v36 : Ref sig .tc := ⟨.hbm, 47, rfl⟩
abbrev main_cst_8 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_9 : Ref sig .tc := ⟨.hbm, 55, rfl⟩
abbrev main_v43 : Ref sig .tc := ⟨.hbm, 56, rfl⟩
abbrev main_v44 : Ref sig .tc := ⟨.hbm, 57, rfl⟩
abbrev main_cst_10 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_11 : Ref sig .tc := ⟨.hbm, 65, rfl⟩
abbrev main_v51 : Ref sig .tc := ⟨.hbm, 66, rfl⟩
abbrev main_v52 : Ref sig .tc := ⟨.hbm, 67, rfl⟩
abbrev main_cst_12 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_13 : Ref sig .tc := ⟨.hbm, 75, rfl⟩
abbrev main_v59 : Ref sig .tc := ⟨.hbm, 76, rfl⟩
abbrev main_v60 : Ref sig .tc := ⟨.hbm, 77, rfl⟩
abbrev main_cst_14 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_15 : Ref sig .tc := ⟨.hbm, 85, rfl⟩
abbrev main_v67 : Ref sig .tc := ⟨.hbm, 86, rfl⟩
abbrev main_v68 : Ref sig .tc := ⟨.hbm, 87, rfl⟩
abbrev main_cst_16 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_17 : Ref sig .tc := ⟨.hbm, 95, rfl⟩
abbrev main_v75 : Ref sig .tc := ⟨.hbm, 96, rfl⟩
abbrev main_v76 : Ref sig .tc := ⟨.hbm, 97, rfl⟩
abbrev main_cst_18 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_19 : Ref sig .tc := ⟨.hbm, 105, rfl⟩
abbrev main_v83 : Ref sig .tc := ⟨.hbm, 106, rfl⟩
abbrev main_v84 : Ref sig .tc := ⟨.hbm, 107, rfl⟩
abbrev main_cst_20 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_21 : Ref sig .tc := ⟨.hbm, 115, rfl⟩
abbrev main_v91 : Ref sig .tc := ⟨.hbm, 116, rfl⟩
abbrev main_v92 : Ref sig .tc := ⟨.hbm, 117, rfl⟩
abbrev main_cst_22 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_cst_23 : Ref sig .tc := ⟨.hbm, 125, rfl⟩
abbrev main_v99 : Ref sig .tc := ⟨.hbm, 126, rfl⟩
abbrev main_v100 : Ref sig .tc := ⟨.hbm, 127, rfl⟩
abbrev main_cst_24 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_25 : Ref sig .tc := ⟨.hbm, 135, rfl⟩
abbrev main_v107 : Ref sig .tc := ⟨.hbm, 136, rfl⟩
abbrev main_v108 : Ref sig .tc := ⟨.hbm, 137, rfl⟩
abbrev main_cst_26 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_cst_27 : Ref sig .tc := ⟨.hbm, 145, rfl⟩
abbrev main_v115 : Ref sig .tc := ⟨.hbm, 146, rfl⟩
abbrev main_v116 : Ref sig .tc := ⟨.hbm, 147, rfl⟩
abbrev main_cst_28 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_cst_29 : Ref sig .tc := ⟨.hbm, 155, rfl⟩
abbrev main_v123 : Ref sig .tc := ⟨.hbm, 156, rfl⟩
abbrev main_v124 : Ref sig .tc := ⟨.hbm, 157, rfl⟩
abbrev main_cst_30 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_cst_31 : Ref sig .tc := ⟨.hbm, 163, rfl⟩
abbrev main_v129 : Ref sig .tc := ⟨.hbm, 164, rfl⟩
abbrev main_v130 : Ref sig .tc := ⟨.hbm, 165, rfl⟩
abbrev main_cst_32 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_cst_33 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_cst_34 : Ref sig .tc := ⟨.hbm, 175, rfl⟩
abbrev main_v138 : Ref sig .tc := ⟨.hbm, 176, rfl⟩
abbrev main_v139 : Ref sig .tc := ⟨.hbm, 177, rfl⟩
abbrev main_cst_35 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_cst_36 : Ref sig .tc := ⟨.hbm, 183, rfl⟩
abbrev main_v144 : Ref sig .tc := ⟨.hbm, 184, rfl⟩
abbrev main_v145 : Ref sig .tc := ⟨.hbm, 185, rfl⟩
abbrev main_cst_37 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_cst_38 : Ref sig .tc := ⟨.hbm, 191, rfl⟩
abbrev main_v150 : Ref sig .tc := ⟨.hbm, 192, rfl⟩
abbrev main_v151 : Ref sig .tc := ⟨.hbm, 193, rfl⟩
abbrev main_cst_39 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_cst_40 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_cst_41 : Ref sig .tc := ⟨.hbm, 203, rfl⟩
abbrev main_v159 : Ref sig .tc := ⟨.hbm, 204, rfl⟩
abbrev main_v160 : Ref sig .tc := ⟨.hbm, 205, rfl⟩
abbrev main_cst_42 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_cst_43 : Ref sig .tc := ⟨.hbm, 211, rfl⟩
abbrev main_v165 : Ref sig .tc := ⟨.hbm, 212, rfl⟩
abbrev main_v166 : Ref sig .tc := ⟨.hbm, 213, rfl⟩
abbrev main_cst_44 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_cst_45 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_cst_46 : Ref sig .tc := ⟨.hbm, 223, rfl⟩
abbrev main_v174 : Ref sig .tc := ⟨.hbm, 224, rfl⟩
abbrev main_v175 : Ref sig .tc := ⟨.hbm, 225, rfl⟩
abbrev main_cst_47 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_cst_48 : Ref sig .tc := ⟨.hbm, 231, rfl⟩
abbrev main_v180 : Ref sig .tc := ⟨.hbm, 232, rfl⟩
abbrev main_v181 : Ref sig .tc := ⟨.hbm, 233, rfl⟩
abbrev main_cst_49 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_cst_50 : Ref sig .tc := ⟨.hbm, 239, rfl⟩
abbrev main_v186 : Ref sig .tc := ⟨.hbm, 240, rfl⟩
abbrev main_v187 : Ref sig .tc := ⟨.hbm, 241, rfl⟩
abbrev main_cst_51 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_cst_52 : Ref sig .tc := ⟨.hbm, 247, rfl⟩
abbrev main_v192 : Ref sig .tc := ⟨.hbm, 248, rfl⟩
abbrev main_v193 : Ref sig .tc := ⟨.hbm, 249, rfl⟩
abbrev main_cst_53 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_cst_54 : Ref sig .tc := ⟨.hbm, 255, rfl⟩
abbrev main_v198 : Ref sig .tc := ⟨.hbm, 256, rfl⟩
abbrev main_v199 : Ref sig .tc := ⟨.hbm, 257, rfl⟩
abbrev main_cst_55 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_cst_56 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_cst_57 : Ref sig .tc := ⟨.hbm, 267, rfl⟩
abbrev main_v207 : Ref sig .tc := ⟨.hbm, 268, rfl⟩
abbrev main_v208 : Ref sig .tc := ⟨.hbm, 269, rfl⟩
abbrev main_cst_58 : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_cst_59 : Ref sig .tc := ⟨.hbm, 275, rfl⟩
abbrev main_v213 : Ref sig .tc := ⟨.hbm, 276, rfl⟩
abbrev main_v214 : Ref sig .tc := ⟨.hbm, 277, rfl⟩
abbrev main_cst_60 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_cst_61 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_cst_62 : Ref sig .tc := ⟨.hbm, 287, rfl⟩
abbrev main_v222 : Ref sig .tc := ⟨.hbm, 288, rfl⟩
abbrev main_v223 : Ref sig .tc := ⟨.hbm, 289, rfl⟩
abbrev main_cst_63 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩
abbrev main_cst_64 : Ref sig .tc := ⟨.hbm, 295, rfl⟩
abbrev main_v228 : Ref sig .tc := ⟨.hbm, 296, rfl⟩
abbrev main_v229 : Ref sig .tc := ⟨.hbm, 297, rfl⟩
abbrev main_cst_65 : Ref sig .tc := ⟨.hbm, 298, rfl⟩
abbrev main_v230 : Ref sig .tc := ⟨.hbm, 299, rfl⟩
abbrev main_v231 : Ref sig .tc := ⟨.hbm, 300, rfl⟩
abbrev main_v232 : Ref sig .tc := ⟨.hbm, 301, rfl⟩
abbrev main_v233 : Ref sig .tc := ⟨.hbm, 302, rfl⟩
abbrev main_cst_66 : Ref sig .tc := ⟨.hbm, 303, rfl⟩
abbrev main_v234 : Ref sig .tc := ⟨.hbm, 304, rfl⟩
abbrev main_v235 : Ref sig .tc := ⟨.hbm, 305, rfl⟩
abbrev main_cst_67 : Ref sig .tc := ⟨.hbm, 306, rfl⟩
abbrev main_v236 : Ref sig .tc := ⟨.hbm, 307, rfl⟩
abbrev main_v237 : Ref sig .tc := ⟨.hbm, 308, rfl⟩
abbrev main_v238 : Ref sig .tc := ⟨.hbm, 309, rfl⟩
abbrev main_v239 : Ref sig .tc := ⟨.hbm, 310, rfl⟩
abbrev main_cst_68 : Ref sig .tc := ⟨.hbm, 311, rfl⟩
abbrev main_v240 : Ref sig .tc := ⟨.hbm, 312, rfl⟩
abbrev main_v241 : Ref sig .tc := ⟨.hbm, 313, rfl⟩
abbrev main_cst_69 : Ref sig .tc := ⟨.hbm, 314, rfl⟩
abbrev main_v242 : Ref sig .tc := ⟨.hbm, 315, rfl⟩
abbrev main_v243 : Ref sig .tc := ⟨.hbm, 316, rfl⟩
abbrev main_v244 : Ref sig .tc := ⟨.hbm, 317, rfl⟩
abbrev main_cst_70 : Ref sig .tc := ⟨.hbm, 318, rfl⟩
abbrev main_v245 : Ref sig .tc := ⟨.hbm, 319, rfl⟩
abbrev main_v246 : Ref sig .tc := ⟨.hbm, 320, rfl⟩
abbrev main_cst_71 : Ref sig .tc := ⟨.hbm, 321, rfl⟩
abbrev main_v247 : Ref sig .tc := ⟨.hbm, 322, rfl⟩
abbrev main_v248 : Ref sig .tc := ⟨.hbm, 323, rfl⟩
abbrev main_cst_72 : Ref sig .tc := ⟨.hbm, 324, rfl⟩
abbrev main_v249 : Ref sig .tc := ⟨.hbm, 325, rfl⟩
abbrev main_v250 : Ref sig .tc := ⟨.hbm, 326, rfl⟩
abbrev main_v251 : Ref sig .tc := ⟨.hbm, 327, rfl⟩
abbrev main_v252 : Ref sig .tc := ⟨.hbm, 328, rfl⟩
abbrev main_cst_73 : Ref sig .tc := ⟨.hbm, 329, rfl⟩
abbrev main_v253 : Ref sig .tc := ⟨.hbm, 330, rfl⟩
abbrev main_v254 : Ref sig .tc := ⟨.hbm, 331, rfl⟩
abbrev main_v255 : Ref sig .tc := ⟨.hbm, 332, rfl⟩
abbrev main_cst_74 : Ref sig .tc := ⟨.hbm, 333, rfl⟩
abbrev main_v256 : Ref sig .tc := ⟨.hbm, 334, rfl⟩
abbrev main_v257 : Ref sig .tc := ⟨.hbm, 335, rfl⟩
abbrev main_cst_75 : Ref sig .tc := ⟨.hbm, 336, rfl⟩
abbrev main_v258 : Ref sig .tc := ⟨.hbm, 337, rfl⟩
abbrev main_v259 : Ref sig .tc := ⟨.hbm, 338, rfl⟩
abbrev main_v260 : Ref sig .tc := ⟨.hbm, 339, rfl⟩
abbrev main_v261 : Ref sig .tc := ⟨.hbm, 340, rfl⟩
abbrev main_cst_76 : Ref sig .tc := ⟨.hbm, 341, rfl⟩
abbrev main_v262 : Ref sig .tc := ⟨.hbm, 342, rfl⟩
abbrev main_v263 : Ref sig .tc := ⟨.hbm, 343, rfl⟩
abbrev main_cst_77 : Ref sig .tc := ⟨.hbm, 344, rfl⟩
abbrev main_v264 : Ref sig .tc := ⟨.hbm, 345, rfl⟩
abbrev main_v265 : Ref sig .tc := ⟨.hbm, 346, rfl⟩
abbrev main_v266 : Ref sig .tc := ⟨.hbm, 347, rfl⟩
abbrev main_v267 : Ref sig .tc := ⟨.hbm, 348, rfl⟩
abbrev main_cst_78 : Ref sig .tc := ⟨.hbm, 349, rfl⟩
abbrev main_v268 : Ref sig .tc := ⟨.hbm, 350, rfl⟩
abbrev main_v269 : Ref sig .tc := ⟨.hbm, 351, rfl⟩
abbrev main_v270 : Ref sig .tc := ⟨.hbm, 352, rfl⟩
abbrev main_cst_79 : Ref sig .tc := ⟨.hbm, 353, rfl⟩
abbrev main_v271 : Ref sig .tc := ⟨.hbm, 354, rfl⟩
abbrev main_v272 : Ref sig .tc := ⟨.hbm, 355, rfl⟩
abbrev main_cst_80 : Ref sig .tc := ⟨.hbm, 356, rfl⟩
abbrev main_v273 : Ref sig .tc := ⟨.hbm, 357, rfl⟩
abbrev main_v274 : Ref sig .tc := ⟨.hbm, 358, rfl⟩
abbrev main_v275 : Ref sig .tc := ⟨.hbm, 359, rfl⟩
abbrev main_v276 : Ref sig .tc := ⟨.hbm, 360, rfl⟩
abbrev main_cst_81 : Ref sig .tc := ⟨.hbm, 361, rfl⟩
abbrev main_v277 : Ref sig .tc := ⟨.hbm, 362, rfl⟩
abbrev main_v278 : Ref sig .tc := ⟨.hbm, 363, rfl⟩
abbrev main_cst_82 : Ref sig .tc := ⟨.hbm, 364, rfl⟩
abbrev main_v279 : Ref sig .tc := ⟨.hbm, 365, rfl⟩
abbrev main_v280 : Ref sig .tc := ⟨.hbm, 366, rfl⟩
abbrev main_v281 : Ref sig .tc := ⟨.hbm, 367, rfl⟩
abbrev main_v282 : Ref sig .tc := ⟨.hbm, 368, rfl⟩
abbrev main_cst_83 : Ref sig .tc := ⟨.hbm, 369, rfl⟩
abbrev main_v283 : Ref sig .tc := ⟨.hbm, 370, rfl⟩
abbrev main_v284 : Ref sig .tc := ⟨.hbm, 371, rfl⟩
abbrev main_cst_84 : Ref sig .tc := ⟨.hbm, 372, rfl⟩
abbrev main_v285 : Ref sig .tc := ⟨.hbm, 373, rfl⟩
abbrev main_v286 : Ref sig .tc := ⟨.hbm, 374, rfl⟩
abbrev main_v287 : Ref sig .tc := ⟨.hbm, 375, rfl⟩
abbrev main_v288 : Ref sig .tc := ⟨.hbm, 376, rfl⟩
abbrev main_cst_85 : Ref sig .tc := ⟨.hbm, 377, rfl⟩
abbrev main_v289 : Ref sig .tc := ⟨.hbm, 378, rfl⟩
abbrev main_v290 : Ref sig .tc := ⟨.hbm, 379, rfl⟩
abbrev main_cst_86 : Ref sig .tc := ⟨.hbm, 380, rfl⟩
abbrev main_v291 : Ref sig .tc := ⟨.hbm, 381, rfl⟩
abbrev main_v292 : Ref sig .tc := ⟨.hbm, 382, rfl⟩
abbrev main_v293 : Ref sig .tc := ⟨.hbm, 383, rfl⟩
abbrev main_v294 : Ref sig .tc := ⟨.hbm, 384, rfl⟩
abbrev main_cst_87 : Ref sig .tc := ⟨.hbm, 385, rfl⟩
abbrev main_v295 : Ref sig .tc := ⟨.hbm, 386, rfl⟩
abbrev main_v296 : Ref sig .tc := ⟨.hbm, 387, rfl⟩
abbrev main_cst_88 : Ref sig .tc := ⟨.hbm, 388, rfl⟩
abbrev main_v297 : Ref sig .tc := ⟨.hbm, 389, rfl⟩
abbrev main_v298 : Ref sig .tc := ⟨.hbm, 390, rfl⟩
abbrev main_v299 : Ref sig .tc := ⟨.hbm, 391, rfl⟩
abbrev main_v300 : Ref sig .tc := ⟨.hbm, 392, rfl⟩
abbrev main_cst_89 : Ref sig .tc := ⟨.hbm, 393, rfl⟩
abbrev main_v301 : Ref sig .tc := ⟨.hbm, 394, rfl⟩
abbrev main_v302 : Ref sig .tc := ⟨.hbm, 395, rfl⟩
abbrev main_v303 : Ref sig .tc := ⟨.hbm, 396, rfl⟩
abbrev main_cst_90 : Ref sig .tc := ⟨.hbm, 397, rfl⟩
abbrev main_v304 : Ref sig .tc := ⟨.hbm, 398, rfl⟩
abbrev main_v305 : Ref sig .tc := ⟨.hbm, 399, rfl⟩
abbrev main_cst_91 : Ref sig .tc := ⟨.hbm, 400, rfl⟩
abbrev main_v306 : Ref sig .tc := ⟨.hbm, 401, rfl⟩
abbrev main_v307 : Ref sig .tc := ⟨.hbm, 402, rfl⟩
abbrev main_v308 : Ref sig .tc := ⟨.hbm, 403, rfl⟩
abbrev main_v309 : Ref sig .tc := ⟨.hbm, 404, rfl⟩
abbrev main_cst_92 : Ref sig .tc := ⟨.hbm, 405, rfl⟩
abbrev main_v310 : Ref sig .tc := ⟨.hbm, 406, rfl⟩
abbrev main_v311 : Ref sig .tc := ⟨.hbm, 407, rfl⟩
abbrev main_cst_93 : Ref sig .tc := ⟨.hbm, 408, rfl⟩
abbrev main_v312 : Ref sig .tc := ⟨.hbm, 409, rfl⟩
abbrev main_v313 : Ref sig .tc := ⟨.hbm, 410, rfl⟩
abbrev main_v314 : Ref sig .tc := ⟨.hbm, 411, rfl⟩
abbrev main_v315 : Ref sig .tc := ⟨.hbm, 412, rfl⟩
abbrev main_cst_94 : Ref sig .tc := ⟨.hbm, 413, rfl⟩
abbrev main_v316 : Ref sig .tc := ⟨.hbm, 414, rfl⟩
abbrev main_v317 : Ref sig .tc := ⟨.hbm, 415, rfl⟩
abbrev main_cst_95 : Ref sig .tc := ⟨.hbm, 416, rfl⟩
abbrev main_v318 : Ref sig .tc := ⟨.hbm, 417, rfl⟩
abbrev main_v319 : Ref sig .tc := ⟨.hbm, 418, rfl⟩
abbrev main_v320 : Ref sig .tc := ⟨.hbm, 419, rfl⟩
abbrev main_v321 : Ref sig .tc := ⟨.hbm, 420, rfl⟩
abbrev main_cst_96 : Ref sig .tc := ⟨.hbm, 421, rfl⟩
abbrev main_v322 : Ref sig .tc := ⟨.hbm, 422, rfl⟩
abbrev main_v323 : Ref sig .tc := ⟨.hbm, 423, rfl⟩
abbrev main_v324 : Ref sig .tc := ⟨.hbm, 424, rfl⟩
abbrev main_cst_97 : Ref sig .tc := ⟨.hbm, 425, rfl⟩
abbrev main_v325 : Ref sig .tc := ⟨.hbm, 426, rfl⟩
abbrev main_v326 : Ref sig .tc := ⟨.hbm, 427, rfl⟩
abbrev main_cst_98 : Ref sig .tc := ⟨.hbm, 428, rfl⟩
abbrev main_v327 : Ref sig .tc := ⟨.hbm, 429, rfl⟩
abbrev main_v328 : Ref sig .tc := ⟨.hbm, 430, rfl⟩
abbrev main_v329 : Ref sig .tc := ⟨.hbm, 431, rfl⟩
abbrev main_v330 : Ref sig .tc := ⟨.hbm, 432, rfl⟩
abbrev main_cst_99 : Ref sig .tc := ⟨.hbm, 433, rfl⟩
abbrev main_v331 : Ref sig .tc := ⟨.hbm, 434, rfl⟩
abbrev main_v332 : Ref sig .tc := ⟨.hbm, 435, rfl⟩
abbrev main_cst_100 : Ref sig .tc := ⟨.hbm, 436, rfl⟩
abbrev main_v333 : Ref sig .tc := ⟨.hbm, 437, rfl⟩
abbrev main_v334 : Ref sig .tc := ⟨.hbm, 438, rfl⟩
abbrev main_v335 : Ref sig .tc := ⟨.hbm, 439, rfl⟩
abbrev main_v336 : Ref sig .tc := ⟨.hbm, 440, rfl⟩
abbrev main_cst_101 : Ref sig .tc := ⟨.hbm, 441, rfl⟩
abbrev main_v337 : Ref sig .tc := ⟨.hbm, 442, rfl⟩
abbrev main_v338 : Ref sig .tc := ⟨.hbm, 443, rfl⟩
abbrev main_v339 : Ref sig .tc := ⟨.hbm, 444, rfl⟩
abbrev main_cst_102 : Ref sig .tc := ⟨.hbm, 445, rfl⟩
abbrev main_v340 : Ref sig .tc := ⟨.hbm, 446, rfl⟩
abbrev main_v341 : Ref sig .tc := ⟨.hbm, 447, rfl⟩
abbrev main_cst_103 : Ref sig .tc := ⟨.hbm, 448, rfl⟩
abbrev main_v342 : Ref sig .tc := ⟨.hbm, 449, rfl⟩
abbrev main_v343 : Ref sig .tc := ⟨.hbm, 450, rfl⟩
abbrev main_v344 : Ref sig .tc := ⟨.hbm, 451, rfl⟩
abbrev main_v345 : Ref sig .tc := ⟨.hbm, 452, rfl⟩
abbrev main_cst_104 : Ref sig .tc := ⟨.hbm, 453, rfl⟩
abbrev main_v346 : Ref sig .tc := ⟨.hbm, 454, rfl⟩
abbrev main_v347 : Ref sig .tc := ⟨.hbm, 455, rfl⟩
abbrev main_cst_105 : Ref sig .tc := ⟨.hbm, 456, rfl⟩
abbrev main_v348 : Ref sig .tc := ⟨.hbm, 457, rfl⟩
abbrev main_v349 : Ref sig .tc := ⟨.hbm, 458, rfl⟩
abbrev main_v350 : Ref sig .tc := ⟨.hbm, 459, rfl⟩
abbrev main_v351 : Ref sig .tc := ⟨.hbm, 460, rfl⟩
abbrev main_cst_106 : Ref sig .tc := ⟨.hbm, 461, rfl⟩
abbrev main_v352 : Ref sig .tc := ⟨.hbm, 462, rfl⟩
abbrev main_v353 : Ref sig .tc := ⟨.hbm, 463, rfl⟩
abbrev main_cst_107 : Ref sig .tc := ⟨.hbm, 464, rfl⟩
abbrev main_v354 : Ref sig .tc := ⟨.hbm, 465, rfl⟩
abbrev main_v355 : Ref sig .tc := ⟨.hbm, 466, rfl⟩
abbrev main_v356 : Ref sig .tc := ⟨.hbm, 467, rfl⟩
abbrev main_v357 : Ref sig .tc := ⟨.hbm, 468, rfl⟩
abbrev main_cst_108 : Ref sig .tc := ⟨.hbm, 469, rfl⟩
abbrev main_v358 : Ref sig .tc := ⟨.hbm, 470, rfl⟩
abbrev main_v359 : Ref sig .tc := ⟨.hbm, 471, rfl⟩
abbrev main_cst_109 : Ref sig .tc := ⟨.hbm, 472, rfl⟩
abbrev main_v360 : Ref sig .tc := ⟨.hbm, 473, rfl⟩
abbrev main_v361 : Ref sig .tc := ⟨.hbm, 474, rfl⟩
abbrev main_v362 : Ref sig .tc := ⟨.hbm, 475, rfl⟩
abbrev main_v363 : Ref sig .tc := ⟨.hbm, 476, rfl⟩
abbrev main_cst_110 : Ref sig .tc := ⟨.hbm, 477, rfl⟩
abbrev main_v364 : Ref sig .tc := ⟨.hbm, 478, rfl⟩
abbrev main_v365 : Ref sig .tc := ⟨.hbm, 479, rfl⟩
abbrev main_cst_111 : Ref sig .tc := ⟨.hbm, 480, rfl⟩
abbrev main_v366 : Ref sig .tc := ⟨.hbm, 481, rfl⟩
abbrev main_v367 : Ref sig .tc := ⟨.hbm, 482, rfl⟩
abbrev main_v368 : Ref sig .tc := ⟨.hbm, 483, rfl⟩
abbrev main_v369 : Ref sig .tc := ⟨.hbm, 484, rfl⟩
abbrev main_cst_112 : Ref sig .tc := ⟨.hbm, 485, rfl⟩
abbrev main_v370 : Ref sig .tc := ⟨.hbm, 486, rfl⟩
abbrev main_v371 : Ref sig .tc := ⟨.hbm, 487, rfl⟩
abbrev main_v372 : Ref sig .tc := ⟨.hbm, 488, rfl⟩
abbrev main_cst_113 : Ref sig .tc := ⟨.hbm, 489, rfl⟩
abbrev main_v373 : Ref sig .tc := ⟨.hbm, 490, rfl⟩
abbrev main_v374 : Ref sig .tc := ⟨.hbm, 491, rfl⟩
abbrev main_cst_114 : Ref sig .tc := ⟨.hbm, 492, rfl⟩
abbrev main_v375 : Ref sig .tc := ⟨.hbm, 493, rfl⟩
abbrev main_v376 : Ref sig .tc := ⟨.hbm, 494, rfl⟩
abbrev main_v377 : Ref sig .tc := ⟨.hbm, 495, rfl⟩
abbrev main_v378 : Ref sig .tc := ⟨.hbm, 496, rfl⟩
abbrev main_cst_115 : Ref sig .tc := ⟨.hbm, 497, rfl⟩
abbrev main_v379 : Ref sig .tc := ⟨.hbm, 498, rfl⟩
abbrev main_v380 : Ref sig .tc := ⟨.hbm, 499, rfl⟩
abbrev main_cst_116 : Ref sig .tc := ⟨.hbm, 500, rfl⟩
abbrev main_v381 : Ref sig .tc := ⟨.hbm, 501, rfl⟩
abbrev main_v382 : Ref sig .tc := ⟨.hbm, 502, rfl⟩
abbrev main_v383 : Ref sig .tc := ⟨.hbm, 503, rfl⟩
abbrev main_v384 : Ref sig .tc := ⟨.hbm, 504, rfl⟩
abbrev main_cst_117 : Ref sig .tc := ⟨.hbm, 505, rfl⟩
abbrev main_v385 : Ref sig .tc := ⟨.hbm, 506, rfl⟩
abbrev main_v386 : Ref sig .tc := ⟨.hbm, 507, rfl⟩
abbrev main_v387 : Ref sig .tc := ⟨.hbm, 508, rfl⟩
abbrev main_cst_118 : Ref sig .tc := ⟨.hbm, 509, rfl⟩
abbrev main_v388 : Ref sig .tc := ⟨.hbm, 510, rfl⟩
abbrev main_v389 : Ref sig .tc := ⟨.hbm, 511, rfl⟩
abbrev main_cst_119 : Ref sig .tc := ⟨.hbm, 512, rfl⟩
abbrev main_v390 : Ref sig .tc := ⟨.hbm, 513, rfl⟩
abbrev main_v391 : Ref sig .tc := ⟨.hbm, 514, rfl⟩
abbrev main_v392 : Ref sig .tc := ⟨.hbm, 515, rfl⟩
abbrev main_v393 : Ref sig .tc := ⟨.hbm, 516, rfl⟩
abbrev main_cst_120 : Ref sig .tc := ⟨.hbm, 517, rfl⟩
abbrev main_v394 : Ref sig .tc := ⟨.hbm, 518, rfl⟩
abbrev main_v395 : Ref sig .tc := ⟨.hbm, 519, rfl⟩
abbrev main_cst_121 : Ref sig .tc := ⟨.hbm, 520, rfl⟩
abbrev main_v396 : Ref sig .tc := ⟨.hbm, 521, rfl⟩
abbrev main_v397 : Ref sig .tc := ⟨.hbm, 522, rfl⟩
abbrev main_v398 : Ref sig .tc := ⟨.hbm, 523, rfl⟩
abbrev main_v399 : Ref sig .tc := ⟨.hbm, 524, rfl⟩
abbrev main_cst_122 : Ref sig .tc := ⟨.hbm, 525, rfl⟩
abbrev main_v400 : Ref sig .tc := ⟨.hbm, 526, rfl⟩
abbrev main_v401 : Ref sig .tc := ⟨.hbm, 527, rfl⟩
abbrev main_cst_123 : Ref sig .tc := ⟨.hbm, 528, rfl⟩
abbrev main_v402 : Ref sig .tc := ⟨.hbm, 529, rfl⟩
abbrev main_v403 : Ref sig .tc := ⟨.hbm, 530, rfl⟩
abbrev main_v404 : Ref sig .tc := ⟨.hbm, 531, rfl⟩
abbrev main_v405 : Ref sig .tc := ⟨.hbm, 532, rfl⟩
abbrev main_cst_124 : Ref sig .tc := ⟨.hbm, 533, rfl⟩
abbrev main_v406 : Ref sig .tc := ⟨.hbm, 534, rfl⟩
abbrev main_v407 : Ref sig .tc := ⟨.hbm, 535, rfl⟩
abbrev main_cst_125 : Ref sig .tc := ⟨.hbm, 536, rfl⟩
abbrev main_v408 : Ref sig .tc := ⟨.hbm, 537, rfl⟩
abbrev main_v409 : Ref sig .tc := ⟨.hbm, 538, rfl⟩
abbrev main_v410 : Ref sig .tc := ⟨.hbm, 539, rfl⟩
abbrev main_v411 : Ref sig .tc := ⟨.hbm, 540, rfl⟩
abbrev main_cst_126 : Ref sig .tc := ⟨.hbm, 541, rfl⟩
abbrev main_v412 : Ref sig .tc := ⟨.hbm, 542, rfl⟩
abbrev main_v413 : Ref sig .tc := ⟨.hbm, 543, rfl⟩
abbrev main_cst_127 : Ref sig .tc := ⟨.hbm, 544, rfl⟩
abbrev main_v414 : Ref sig .tc := ⟨.hbm, 545, rfl⟩
abbrev main_v415 : Ref sig .tc := ⟨.hbm, 546, rfl⟩
abbrev main_v416 : Ref sig .tc := ⟨.hbm, 547, rfl⟩
abbrev main_v417 : Ref sig .tc := ⟨.hbm, 548, rfl⟩
abbrev main_cst_128 : Ref sig .tc := ⟨.hbm, 549, rfl⟩
abbrev main_v418 : Ref sig .tc := ⟨.hbm, 550, rfl⟩
abbrev main_v419 : Ref sig .tc := ⟨.hbm, 551, rfl⟩
abbrev main_v420 : Ref sig .tc := ⟨.hbm, 552, rfl⟩
abbrev main_cst_129 : Ref sig .tc := ⟨.hbm, 553, rfl⟩
abbrev main_v421 : Ref sig .tc := ⟨.hbm, 554, rfl⟩
abbrev main_v422 : Ref sig .tc := ⟨.hbm, 555, rfl⟩
abbrev main_cst_130 : Ref sig .tc := ⟨.hbm, 556, rfl⟩
abbrev main_v423 : Ref sig .tc := ⟨.hbm, 557, rfl⟩
abbrev main_v424 : Ref sig .tc := ⟨.hbm, 558, rfl⟩
abbrev main_v425 : Ref sig .tc := ⟨.hbm, 559, rfl⟩
abbrev main_v426 : Ref sig .tc := ⟨.hbm, 560, rfl⟩
abbrev main_cst_131 : Ref sig .tc := ⟨.hbm, 561, rfl⟩
abbrev main_v427 : Ref sig .tc := ⟨.hbm, 562, rfl⟩
abbrev main_v428 : Ref sig .tc := ⟨.hbm, 563, rfl⟩
abbrev main_cst_132 : Ref sig .tc := ⟨.hbm, 564, rfl⟩
abbrev main_v429 : Ref sig .tc := ⟨.hbm, 565, rfl⟩
abbrev main_v430 : Ref sig .tc := ⟨.hbm, 566, rfl⟩
abbrev main_v431 : Ref sig .tc := ⟨.hbm, 567, rfl⟩
abbrev main_v432 : Ref sig .tc := ⟨.hbm, 568, rfl⟩
abbrev main_cst_133 : Ref sig .tc := ⟨.hbm, 569, rfl⟩
abbrev main_v433 : Ref sig .tc := ⟨.hbm, 570, rfl⟩
abbrev main_v434 : Ref sig .tc := ⟨.hbm, 571, rfl⟩
abbrev main_v435 : Ref sig .tc := ⟨.hbm, 572, rfl⟩
abbrev main_cst_134 : Ref sig .tc := ⟨.hbm, 573, rfl⟩
abbrev main_v436 : Ref sig .tc := ⟨.hbm, 574, rfl⟩
abbrev main_v437 : Ref sig .tc := ⟨.hbm, 575, rfl⟩
abbrev main_cst_135 : Ref sig .tc := ⟨.hbm, 576, rfl⟩
abbrev main_v438 : Ref sig .tc := ⟨.hbm, 577, rfl⟩
abbrev main_v439 : Ref sig .tc := ⟨.hbm, 578, rfl⟩
abbrev main_v440 : Ref sig .tc := ⟨.hbm, 579, rfl⟩
abbrev main_v441 : Ref sig .tc := ⟨.hbm, 580, rfl⟩
abbrev main_cst_136 : Ref sig .tc := ⟨.hbm, 581, rfl⟩
abbrev main_v442 : Ref sig .tc := ⟨.hbm, 582, rfl⟩
abbrev main_v443 : Ref sig .tc := ⟨.hbm, 583, rfl⟩
abbrev main_cst_137 : Ref sig .tc := ⟨.hbm, 584, rfl⟩
abbrev main_v444 : Ref sig .tc := ⟨.hbm, 585, rfl⟩
abbrev main_v445 : Ref sig .tc := ⟨.hbm, 586, rfl⟩
abbrev main_v446 : Ref sig .tc := ⟨.hbm, 587, rfl⟩
abbrev main_v447 : Ref sig .tc := ⟨.hbm, 588, rfl⟩
abbrev main_cst_138 : Ref sig .tc := ⟨.hbm, 589, rfl⟩
abbrev main_v448 : Ref sig .tc := ⟨.hbm, 590, rfl⟩
abbrev main_v449 : Ref sig .tc := ⟨.hbm, 591, rfl⟩
abbrev main_cst_139 : Ref sig .tc := ⟨.hbm, 592, rfl⟩
abbrev main_v450 : Ref sig .tc := ⟨.hbm, 593, rfl⟩
abbrev main_v451 : Ref sig .tc := ⟨.hbm, 594, rfl⟩
abbrev main_v452 : Ref sig .tc := ⟨.hbm, 595, rfl⟩
abbrev main_v453 : Ref sig .tc := ⟨.hbm, 596, rfl⟩
abbrev main_cst_140 : Ref sig .tc := ⟨.hbm, 597, rfl⟩
abbrev main_v454 : Ref sig .tc := ⟨.hbm, 598, rfl⟩
abbrev main_v455 : Ref sig .tc := ⟨.hbm, 599, rfl⟩
abbrev main_cst_141 : Ref sig .tc := ⟨.hbm, 600, rfl⟩
abbrev main_v456 : Ref sig .tc := ⟨.hbm, 601, rfl⟩
abbrev main_v457 : Ref sig .tc := ⟨.hbm, 602, rfl⟩
abbrev main_v458 : Ref sig .tc := ⟨.hbm, 603, rfl⟩
abbrev main_v459 : Ref sig .tc := ⟨.hbm, 604, rfl⟩
abbrev main_cst_142 : Ref sig .tc := ⟨.hbm, 605, rfl⟩
abbrev main_v460 : Ref sig .tc := ⟨.hbm, 606, rfl⟩
abbrev main_v461 : Ref sig .tc := ⟨.hbm, 607, rfl⟩
abbrev main_cst_143 : Ref sig .tc := ⟨.hbm, 608, rfl⟩
abbrev main_v462 : Ref sig .tc := ⟨.hbm, 609, rfl⟩
abbrev main_v463 : Ref sig .tc := ⟨.hbm, 610, rfl⟩
abbrev main_v464 : Ref sig .tc := ⟨.hbm, 611, rfl⟩
abbrev main_v465 : Ref sig .tc := ⟨.hbm, 612, rfl⟩
abbrev main_cst_144 : Ref sig .tc := ⟨.hbm, 613, rfl⟩
abbrev main_v466 : Ref sig .tc := ⟨.hbm, 614, rfl⟩
abbrev main_v467 : Ref sig .tc := ⟨.hbm, 615, rfl⟩
abbrev main_v468 : Ref sig .tc := ⟨.hbm, 616, rfl⟩
abbrev main_cst_145 : Ref sig .tc := ⟨.hbm, 617, rfl⟩
abbrev main_v469 : Ref sig .tc := ⟨.hbm, 618, rfl⟩
abbrev main_v470 : Ref sig .tc := ⟨.hbm, 619, rfl⟩
abbrev main_cst_146 : Ref sig .tc := ⟨.hbm, 620, rfl⟩
abbrev main_v471 : Ref sig .tc := ⟨.hbm, 621, rfl⟩
abbrev main_v472 : Ref sig .tc := ⟨.hbm, 622, rfl⟩
abbrev main_v473 : Ref sig .tc := ⟨.hbm, 623, rfl⟩
abbrev main_v474 : Ref sig .tc := ⟨.hbm, 624, rfl⟩
abbrev main_cst_147 : Ref sig .tc := ⟨.hbm, 625, rfl⟩
abbrev main_v475 : Ref sig .tc := ⟨.hbm, 626, rfl⟩
abbrev main_v476 : Ref sig .tc := ⟨.hbm, 627, rfl⟩
abbrev main_cst_148 : Ref sig .tc := ⟨.hbm, 628, rfl⟩
abbrev main_v477 : Ref sig .tc := ⟨.hbm, 629, rfl⟩
abbrev main_v478 : Ref sig .tc := ⟨.hbm, 630, rfl⟩
abbrev main_v479 : Ref sig .tc := ⟨.hbm, 631, rfl⟩
abbrev main_v480 : Ref sig .tc := ⟨.hbm, 632, rfl⟩
abbrev main_cst_149 : Ref sig .tc := ⟨.hbm, 633, rfl⟩
abbrev main_v481 : Ref sig .tc := ⟨.hbm, 634, rfl⟩
abbrev main_v482 : Ref sig .tc := ⟨.hbm, 635, rfl⟩
abbrev main_cst_150 : Ref sig .tc := ⟨.hbm, 636, rfl⟩
abbrev main_v483 : Ref sig .tc := ⟨.hbm, 637, rfl⟩
abbrev main_v484 : Ref sig .tc := ⟨.hbm, 638, rfl⟩
abbrev main_v485 : Ref sig .tc := ⟨.hbm, 639, rfl⟩
abbrev main_v486 : Ref sig .tc := ⟨.hbm, 640, rfl⟩
abbrev main_cst_151 : Ref sig .tc := ⟨.hbm, 641, rfl⟩
abbrev main_v487 : Ref sig .tc := ⟨.hbm, 642, rfl⟩
abbrev main_v488 : Ref sig .tc := ⟨.hbm, 643, rfl⟩
abbrev main_v489 : Ref sig .tc := ⟨.hbm, 644, rfl⟩
abbrev main_cst_152 : Ref sig .tc := ⟨.hbm, 645, rfl⟩
abbrev main_v490 : Ref sig .tc := ⟨.hbm, 646, rfl⟩
abbrev main_v491 : Ref sig .tc := ⟨.hbm, 647, rfl⟩
abbrev main_cst_153 : Ref sig .tc := ⟨.hbm, 648, rfl⟩
abbrev main_v492 : Ref sig .tc := ⟨.hbm, 649, rfl⟩
abbrev main_v493 : Ref sig .tc := ⟨.hbm, 650, rfl⟩
abbrev main_v494 : Ref sig .tc := ⟨.hbm, 651, rfl⟩
abbrev main_v495 : Ref sig .tc := ⟨.hbm, 652, rfl⟩
abbrev main_cst_154 : Ref sig .tc := ⟨.hbm, 653, rfl⟩
abbrev main_v496 : Ref sig .tc := ⟨.hbm, 654, rfl⟩
abbrev main_v497 : Ref sig .tc := ⟨.hbm, 655, rfl⟩
abbrev main_cst_155 : Ref sig .tc := ⟨.hbm, 656, rfl⟩
abbrev main_v498 : Ref sig .tc := ⟨.hbm, 657, rfl⟩
abbrev main_v499 : Ref sig .tc := ⟨.hbm, 658, rfl⟩
abbrev main_v500 : Ref sig .tc := ⟨.hbm, 659, rfl⟩
abbrev main_v501 : Ref sig .tc := ⟨.hbm, 660, rfl⟩
abbrev main_cst_156 : Ref sig .tc := ⟨.hbm, 661, rfl⟩
abbrev main_v502 : Ref sig .tc := ⟨.hbm, 662, rfl⟩
abbrev main_v503 : Ref sig .tc := ⟨.hbm, 663, rfl⟩
abbrev main_v504 : Ref sig .tc := ⟨.hbm, 664, rfl⟩
abbrev main_cst_157 : Ref sig .tc := ⟨.hbm, 665, rfl⟩
abbrev main_v505 : Ref sig .tc := ⟨.hbm, 666, rfl⟩
abbrev main_v506 : Ref sig .tc := ⟨.hbm, 667, rfl⟩
abbrev main_cst_158 : Ref sig .tc := ⟨.hbm, 668, rfl⟩
abbrev main_v507 : Ref sig .tc := ⟨.hbm, 669, rfl⟩
abbrev main_v508 : Ref sig .tc := ⟨.hbm, 670, rfl⟩
abbrev main_v509 : Ref sig .tc := ⟨.hbm, 671, rfl⟩
abbrev main_v510 : Ref sig .tc := ⟨.hbm, 672, rfl⟩
abbrev main_cst_159 : Ref sig .tc := ⟨.hbm, 673, rfl⟩
abbrev main_v511 : Ref sig .tc := ⟨.hbm, 674, rfl⟩
abbrev main_v512 : Ref sig .tc := ⟨.hbm, 675, rfl⟩
abbrev main_cst_160 : Ref sig .tc := ⟨.hbm, 676, rfl⟩
abbrev main_v513 : Ref sig .tc := ⟨.hbm, 677, rfl⟩
abbrev main_v514 : Ref sig .tc := ⟨.hbm, 678, rfl⟩
abbrev main_v515 : Ref sig .tc := ⟨.hbm, 679, rfl⟩
abbrev main_v516 : Ref sig .tc := ⟨.hbm, 680, rfl⟩
abbrev main_cst_161 : Ref sig .tc := ⟨.hbm, 681, rfl⟩
abbrev main_v517 : Ref sig .tc := ⟨.hbm, 682, rfl⟩
abbrev main_v518 : Ref sig .tc := ⟨.hbm, 683, rfl⟩
abbrev main_cst_162 : Ref sig .tc := ⟨.hbm, 684, rfl⟩
abbrev main_v519 : Ref sig .tc := ⟨.hbm, 685, rfl⟩
abbrev main_v520 : Ref sig .tc := ⟨.hbm, 686, rfl⟩
abbrev main_v521 : Ref sig .tc := ⟨.hbm, 687, rfl⟩
abbrev main_v522 : Ref sig .tc := ⟨.hbm, 688, rfl⟩
abbrev main_cst_163 : Ref sig .tc := ⟨.hbm, 689, rfl⟩
abbrev main_v523 : Ref sig .tc := ⟨.hbm, 690, rfl⟩
abbrev main_v524 : Ref sig .tc := ⟨.hbm, 691, rfl⟩
abbrev main_cst_164 : Ref sig .tc := ⟨.hbm, 692, rfl⟩
abbrev main_v525 : Ref sig .tc := ⟨.hbm, 693, rfl⟩
abbrev main_v526 : Ref sig .tc := ⟨.hbm, 694, rfl⟩
abbrev main_v527 : Ref sig .tc := ⟨.hbm, 695, rfl⟩
abbrev main_v528 : Ref sig .tc := ⟨.hbm, 696, rfl⟩
abbrev main_cst_165 : Ref sig .tc := ⟨.hbm, 697, rfl⟩
abbrev main_v529 : Ref sig .tc := ⟨.hbm, 698, rfl⟩
abbrev main_v530 : Ref sig .tc := ⟨.hbm, 699, rfl⟩
abbrev main_cst_166 : Ref sig .tc := ⟨.hbm, 700, rfl⟩
abbrev main_v531 : Ref sig .tc := ⟨.hbm, 701, rfl⟩
abbrev main_v532 : Ref sig .tc := ⟨.hbm, 702, rfl⟩
abbrev main_v533 : Ref sig .tc := ⟨.hbm, 703, rfl⟩
abbrev main_v534 : Ref sig .tc := ⟨.hbm, 704, rfl⟩
abbrev main_cst_167 : Ref sig .tc := ⟨.hbm, 705, rfl⟩
abbrev main_v535 : Ref sig .tc := ⟨.hbm, 706, rfl⟩
abbrev main_v536 : Ref sig .tc := ⟨.hbm, 707, rfl⟩
abbrev main_v537 : Ref sig .tc := ⟨.hbm, 708, rfl⟩
abbrev main_cst_168 : Ref sig .tc := ⟨.hbm, 709, rfl⟩
abbrev main_v538 : Ref sig .tc := ⟨.hbm, 710, rfl⟩
abbrev main_v539 : Ref sig .tc := ⟨.hbm, 711, rfl⟩
abbrev main_cst_169 : Ref sig .tc := ⟨.hbm, 712, rfl⟩
abbrev main_v540 : Ref sig .tc := ⟨.hbm, 713, rfl⟩
abbrev main_v541 : Ref sig .tc := ⟨.hbm, 714, rfl⟩
abbrev main_v542 : Ref sig .tc := ⟨.hbm, 715, rfl⟩
abbrev main_v543 : Ref sig .tc := ⟨.hbm, 716, rfl⟩
abbrev main_cst_170 : Ref sig .tc := ⟨.hbm, 717, rfl⟩
abbrev main_v544 : Ref sig .tc := ⟨.hbm, 718, rfl⟩
abbrev main_v545 : Ref sig .tc := ⟨.hbm, 719, rfl⟩
abbrev main_cst_171 : Ref sig .tc := ⟨.hbm, 720, rfl⟩
abbrev main_v546 : Ref sig .tc := ⟨.hbm, 721, rfl⟩
abbrev main_v547 : Ref sig .tc := ⟨.hbm, 722, rfl⟩
abbrev main_v548 : Ref sig .tc := ⟨.hbm, 723, rfl⟩
abbrev main_v549 : Ref sig .tc := ⟨.hbm, 724, rfl⟩
abbrev main_cst_172 : Ref sig .tc := ⟨.hbm, 725, rfl⟩
abbrev main_v550 : Ref sig .tc := ⟨.hbm, 726, rfl⟩
abbrev main_v551 : Ref sig .tc := ⟨.hbm, 727, rfl⟩
abbrev main_v552 : Ref sig .tc := ⟨.hbm, 728, rfl⟩
abbrev main_cst_173 : Ref sig .tc := ⟨.hbm, 729, rfl⟩
abbrev main_v553 : Ref sig .tc := ⟨.hbm, 730, rfl⟩
abbrev main_v554 : Ref sig .tc := ⟨.hbm, 731, rfl⟩
abbrev main_cst_174 : Ref sig .tc := ⟨.hbm, 732, rfl⟩
abbrev main_v555 : Ref sig .tc := ⟨.hbm, 733, rfl⟩
abbrev main_v556 : Ref sig .tc := ⟨.hbm, 734, rfl⟩
abbrev main_v557 : Ref sig .tc := ⟨.hbm, 735, rfl⟩
abbrev main_v558 : Ref sig .tc := ⟨.hbm, 736, rfl⟩
abbrev main_cst_175 : Ref sig .tc := ⟨.hbm, 737, rfl⟩
abbrev main_v559 : Ref sig .tc := ⟨.hbm, 738, rfl⟩
abbrev main_v560 : Ref sig .tc := ⟨.hbm, 739, rfl⟩
abbrev main_cst_176 : Ref sig .tc := ⟨.hbm, 740, rfl⟩
abbrev main_v561 : Ref sig .tc := ⟨.hbm, 741, rfl⟩
abbrev main_v562 : Ref sig .tc := ⟨.hbm, 742, rfl⟩
abbrev main_v563 : Ref sig .tc := ⟨.hbm, 743, rfl⟩
abbrev main_v564 : Ref sig .tc := ⟨.hbm, 744, rfl⟩
abbrev main_cst_177 : Ref sig .tc := ⟨.hbm, 745, rfl⟩
abbrev main_v565 : Ref sig .tc := ⟨.hbm, 746, rfl⟩
abbrev main_v566 : Ref sig .tc := ⟨.hbm, 747, rfl⟩
abbrev main_cst_178 : Ref sig .tc := ⟨.hbm, 748, rfl⟩
abbrev main_v567 : Ref sig .tc := ⟨.hbm, 749, rfl⟩
abbrev main_v568 : Ref sig .tc := ⟨.hbm, 750, rfl⟩
abbrev main_v569 : Ref sig .tc := ⟨.hbm, 751, rfl⟩
abbrev main_v570 : Ref sig .tc := ⟨.hbm, 752, rfl⟩
abbrev main_cst_179 : Ref sig .tc := ⟨.hbm, 753, rfl⟩
abbrev main_v571 : Ref sig .tc := ⟨.hbm, 754, rfl⟩
abbrev main_v572 : Ref sig .tc := ⟨.hbm, 755, rfl⟩
abbrev main_cst_180 : Ref sig .tc := ⟨.hbm, 756, rfl⟩
abbrev main_v573 : Ref sig .tc := ⟨.hbm, 757, rfl⟩
abbrev main_v574 : Ref sig .tc := ⟨.hbm, 758, rfl⟩
abbrev main_v575 : Ref sig .tc := ⟨.hbm, 759, rfl⟩
abbrev main_v576 : Ref sig .tc := ⟨.hbm, 760, rfl⟩
abbrev main_cst_181 : Ref sig .tc := ⟨.hbm, 761, rfl⟩
abbrev main_v577 : Ref sig .tc := ⟨.hbm, 762, rfl⟩
abbrev main_v578 : Ref sig .tc := ⟨.hbm, 763, rfl⟩
abbrev main_cst_182 : Ref sig .tc := ⟨.hbm, 764, rfl⟩
abbrev main_v579 : Ref sig .tc := ⟨.hbm, 765, rfl⟩
abbrev main_v580 : Ref sig .tc := ⟨.hbm, 766, rfl⟩
abbrev main_v581 : Ref sig .tc := ⟨.hbm, 767, rfl⟩
abbrev main_v582 : Ref sig .tc := ⟨.hbm, 768, rfl⟩
abbrev main_cst_183 : Ref sig .tc := ⟨.hbm, 769, rfl⟩
abbrev main_v583 : Ref sig .tc := ⟨.hbm, 770, rfl⟩
abbrev main_v584 : Ref sig .tc := ⟨.hbm, 771, rfl⟩
abbrev main_v585 : Ref sig .tc := ⟨.hbm, 772, rfl⟩
abbrev main_cst_184 : Ref sig .tc := ⟨.hbm, 773, rfl⟩
abbrev main_v586 : Ref sig .tc := ⟨.hbm, 774, rfl⟩
abbrev main_v587 : Ref sig .tc := ⟨.hbm, 775, rfl⟩
abbrev main_cst_185 : Ref sig .tc := ⟨.hbm, 776, rfl⟩
abbrev main_v588 : Ref sig .tc := ⟨.hbm, 777, rfl⟩
abbrev main_v589 : Ref sig .tc := ⟨.hbm, 778, rfl⟩
abbrev main_v590 : Ref sig .tc := ⟨.hbm, 779, rfl⟩
abbrev main_v591 : Ref sig .tc := ⟨.hbm, 780, rfl⟩
abbrev main_cst_186 : Ref sig .tc := ⟨.hbm, 781, rfl⟩
abbrev main_v592 : Ref sig .tc := ⟨.hbm, 782, rfl⟩
abbrev main_v593 : Ref sig .tc := ⟨.hbm, 783, rfl⟩
abbrev main_cst_187 : Ref sig .tc := ⟨.hbm, 784, rfl⟩
abbrev main_v594 : Ref sig .tc := ⟨.hbm, 785, rfl⟩
abbrev main_v595 : Ref sig .tc := ⟨.hbm, 786, rfl⟩
abbrev main_v596 : Ref sig .tc := ⟨.hbm, 787, rfl⟩
abbrev main_v597 : Ref sig .tc := ⟨.hbm, 788, rfl⟩
abbrev main_cst_188 : Ref sig .tc := ⟨.hbm, 789, rfl⟩
abbrev main_v598 : Ref sig .tc := ⟨.hbm, 790, rfl⟩
abbrev main_v599 : Ref sig .tc := ⟨.hbm, 791, rfl⟩
abbrev main_v600 : Ref sig .tc := ⟨.hbm, 792, rfl⟩
abbrev main_cst_189 : Ref sig .tc := ⟨.hbm, 793, rfl⟩
abbrev main_v601 : Ref sig .tc := ⟨.hbm, 794, rfl⟩
abbrev main_v602 : Ref sig .tc := ⟨.hbm, 795, rfl⟩
abbrev main_cst_190 : Ref sig .tc := ⟨.hbm, 796, rfl⟩
abbrev main_v603 : Ref sig .tc := ⟨.hbm, 797, rfl⟩
abbrev main_v604 : Ref sig .tc := ⟨.hbm, 798, rfl⟩
abbrev main_v605 : Ref sig .tc := ⟨.hbm, 799, rfl⟩
abbrev main_v606 : Ref sig .tc := ⟨.hbm, 800, rfl⟩
abbrev main_cst_191 : Ref sig .tc := ⟨.hbm, 801, rfl⟩
abbrev main_v607 : Ref sig .tc := ⟨.hbm, 802, rfl⟩
abbrev main_v608 : Ref sig .tc := ⟨.hbm, 803, rfl⟩
abbrev main_cst_192 : Ref sig .tc := ⟨.hbm, 804, rfl⟩
abbrev main_v609 : Ref sig .tc := ⟨.hbm, 805, rfl⟩
abbrev main_v610 : Ref sig .tc := ⟨.hbm, 806, rfl⟩
abbrev main_v611 : Ref sig .tc := ⟨.hbm, 807, rfl⟩
abbrev main_v612 : Ref sig .tc := ⟨.hbm, 808, rfl⟩
abbrev main_cst_193 : Ref sig .tc := ⟨.hbm, 809, rfl⟩
abbrev main_v613 : Ref sig .tc := ⟨.hbm, 810, rfl⟩
abbrev main_v614 : Ref sig .tc := ⟨.hbm, 811, rfl⟩
abbrev main_cst_194 : Ref sig .tc := ⟨.hbm, 812, rfl⟩
abbrev main_v615 : Ref sig .tc := ⟨.hbm, 813, rfl⟩
abbrev main_v616 : Ref sig .tc := ⟨.hbm, 814, rfl⟩
abbrev main_v617 : Ref sig .tc := ⟨.hbm, 815, rfl⟩
abbrev main_v618 : Ref sig .tc := ⟨.hbm, 816, rfl⟩
abbrev main_cst_195 : Ref sig .tc := ⟨.hbm, 817, rfl⟩
abbrev main_v619 : Ref sig .tc := ⟨.hbm, 818, rfl⟩
abbrev main_v620 : Ref sig .tc := ⟨.hbm, 819, rfl⟩
abbrev main_cst_196 : Ref sig .tc := ⟨.hbm, 820, rfl⟩
abbrev main_v621 : Ref sig .tc := ⟨.hbm, 821, rfl⟩
abbrev main_v622 : Ref sig .tc := ⟨.hbm, 822, rfl⟩
abbrev main_v623 : Ref sig .tc := ⟨.hbm, 823, rfl⟩
abbrev main_v624 : Ref sig .tc := ⟨.hbm, 824, rfl⟩

abbrev nD : Nat := 1
abbrev τ : Topo := Topo.v7x

variable {F : FTy → Type} [FloatOps F]

class Facts₀ : Prop where
  slices_S4194304x4_S4194304x1_0_0 : S4194304x4.Slices ![0, 0] S4194304x1
  bcast_S_S4194304x1 : S_.BroadcastsInDim S4194304x1 (![] : Fin 0 → Fin S4194304x1.rank)
  slices_S4194304x4_S4194304x1_0_1 : S4194304x4.Slices ![0, 1] S4194304x1
  slices_S4194304x4_S4194304x1_0_2 : S4194304x4.Slices ![0, 2] S4194304x1
  slices_S4194304x4_S4194304x1_0_3 : S4194304x4.Slices ![0, 3] S4194304x1
  concatenates_S4194304x1_S4194304x1_S4194304x1_S4194304x1_S4194304x1_S4194304x1_S4194304x1_S4194304x1_S4194304x8_d1 : Shape.Concatenates [S4194304x1, S4194304x1, S4194304x1, S4194304x1, S4194304x1, S4194304x1, S4194304x1, S4194304x1] S4194304x8 1

variable [Facts₀]

class Facts : Prop extends Facts₀ where

variable [Facts]
-- ==== Proof.GateNet.lean ====
/-
  The 4-bit by 4-bit array multiplier as a network of threshold gates, over any carrier.

  A gate network is given by its three two-input gates and the constant low signal. The multiplier takes two 4-bit
  operands a, b (bit j of a is "a j") and forms the sixteen partial products p i j = a_j AND b_i; three rows of
  adders then add them up in the schoolbook arrangement: row 1 adds p 0 · (shifted) and p 1 ·, row 2 adds p 2 ·,
  row 3 adds p 3 ·. A half adder of x, y is (x XOR y, x AND y); a full adder of x, y, c has the partial sum
  t = x XOR y, the sum t XOR c and the carry (x AND y) OR (t AND c). The eight results are the product's bits,
  least significant first.

  The one fact proved about the network here, beside congruence in its arguments, is that it is NATURAL in the
  carrier: a map that commutes with the three gates and the low signal commutes with the whole network. Reading a
  network of pointwise gates on arrays at one index is such a map, which is how both programs' arrays are brought to
  one scalar network.
-/
import Mathlib.Data.Fintype.Basic
import Mathlib.Tactic.FinCases

namespace Cert.GateNet

/-- The gates a multiplier is built from. -/
structure Gates (α : Type) where
  and : α → α → α
  or : α → α → α
  xor : α → α → α
  low : α

variable {α β : Type}

/-- Bit k of the 4 x 4 array multiplier's product, as a gate network over the operands' bits. -/
def net (g : Gates α) (a b : Fin 4 → α) (k : Fin 8) : α :=
  let p (i j : Fin 4) : α := g.and (a j) (b i)
  -- row 1: p 0 · + p 1 ·
  let s11 := g.xor (p 0 1) (p 1 0)
  let c11 := g.and (p 0 1) (p 1 0)
  let t12 := g.xor (p 0 2) (p 1 1)
  let s12 := g.xor t12 c11
  let c12 := g.or (g.and (p 0 2) (p 1 1)) (g.and t12 c11)
  let t13 := g.xor (p 0 3) (p 1 2)
  let s13 := g.xor t13 c12
  let c13 := g.or (g.and (p 0 3) (p 1 2)) (g.and t13 c12)
  let t14 := g.xor g.low (p 1 3)
  let s14 := g.xor t14 c13
  let c14 := g.or (g.and g.low (p 1 3)) (g.and t14 c13)
  -- row 2: + p 2 ·
  let s22 := g.xor s12 (p 2 0)
  let c22 := g.and s12 (p 2 0)
  let t23 := g.xor s13 (p 2 1)
  let s23 := g.xor t23 c22
  let c23 := g.or (g.and s13 (p 2 1)) (g.and t23 c22)
  let t24 := g.xor s14 (p 2 2)
  let s24 := g.xor t24 c23
  let c24 := g.or (g.and s14 (p 2 2)) (g.and t24 c23)
  let t25 := g.xor c14 (p 2 3)
  let s25 := g.xor t25 c24
  let c25 := g.or (g.and c14 (p 2 3)) (g.and t25 c24)
  -- row 3: + p 3 ·
  let s33 := g.xor s23 (p 3 0)
  let c33 := g.and s23 (p 3 0)
  let t34 := g.xor s24 (p 3 1)
  let s34 := g.xor t34 c33
  let c34 := g.or (g.and s24 (p 3 1)) (g.and t34 c33)
  let t35 := g.xor s25 (p 3 2)
  let s35 := g.xor t35 c34
  let c35 := g.or (g.and s25 (p 3 2)) (g.and t35 c34)
  let t36 := g.xor c25 (p 3 3)
  let s36 := g.xor t36 c35
  let c36 := g.or (g.and c25 (p 3 3)) (g.and t36 c35)
  match k with
  | 0 => p 0 0
  | 1 => s11
  | 2 => s22
  | 3 => s33
  | 4 => s34
  | 5 => s35
  | 6 => s36
  | 7 => c36

/-- The network is natural in the carrier: a map commuting with the gates commutes with the network. -/
theorem net_map (g : Gates α) (g' : Gates β) (φ : α → β)
    (hand : ∀ x y, φ (g.and x y) = g'.and (φ x) (φ y)) (hor : ∀ x y, φ (g.or x y) = g'.or (φ x) (φ y))
    (hxor : ∀ x y, φ (g.xor x y) = g'.xor (φ x) (φ y)) (hlow : φ g.low = g'.low)
    (a b : Fin 4 → α) (k : Fin 8) :
    φ (net g a b k) = net g' (fun j => φ (a j)) (fun i => φ (b i)) k := by
  fin_cases k <;> simp only [net, hand, hor, hxor, hlow]

/-- The network is a function of its operands' bits and of the result bit asked for. -/
theorem net_congr (g : Gates α) {a a' b b' : Fin 4 → α} {k k' : Fin 8}
    (ha : ∀ j, a j = a' j) (hb : ∀ j, b j = b' j) (hk : k = k') : net g a b k = net g a' b' k' := by
  obtain rfl : a = a' := funext ha
  obtain rfl : b = b' := funext hb
  rw [hk]

end Cert.GateNet
-- ==== Proof.Threshold.lean ====
/-
  The threshold gates of the two programs.

  Every gate of both programs is a threshold unit: it FIRES (gives 1.0) when its input is at least 0 and is silent
  (0.0) otherwise. AND of x, y fires on x + y - 1.5, OR on x + y - 0.5, and XOR has a hidden AND unit h and fires on
  x + y - 2·h - 0.5. The four float words are 1.5 = 0x3FC00000, 0.5 = 0x3F000000, 2.0 = 0x40000000 and 0; both
  programs write the same words, so none is ever evaluated. The one difference between the programs is how the
  comparison's answer bit becomes a float: the host converts the bit, the kernel widens it to a 32-bit word and
  converts that as a signed number. A one-bit answer is 0 or 1 either way, so over the extended reals the two
  units are one function (fireKernel_eq_fireHost).

  On arrays the gates act entry by entry; "read at index i" therefore commutes with every gate, and by the
  network's naturality with the whole multiplier (kernelNet_apply, hostNet_apply).
-/
import proofs.«166286_j23407571764172_2_alg».proof.Proof.GateNet
import Idealize.ShloMosaic.Lib.KernelVsHost
import Idealize.ShloMosaic.PureOps.Ideal

noncomputable section

namespace Cert.GateNet

open Idealize.ShloMosaic

variable {F : FTy → Type} [FloatOps F]

/-! ## On one value -/

/-- The host's threshold unit: the answer bit of "x ≥ 0", converted to a float. -/
def fireHost (x : F .f32) : F .f32 :=
  FloatOps.uitofp .f32 (FloatOps.cmpf .oge x (FloatOps.ofBits .f32 0x00000000#32))

/-- The kernel's threshold unit: the answer bit widened to a word, the word converted signed. -/
def fireKernel (x : F .f32) : F .f32 :=
  FloatOps.sitofp .f32 ((FloatOps.cmpf .oge x (FloatOps.ofBits .f32 0x00000000#32)).setWidth 32)

/-- The three gates and the low signal over a threshold unit fire. -/
def thresholdGates (fire : F .f32 → F .f32) : Gates (F .f32) where
  and x y := fire (FloatOps.subf (FloatOps.addf x y) (FloatOps.ofBits .f32 0x3FC00000#32))
  or x y := fire (FloatOps.subf (FloatOps.addf x y) (FloatOps.ofBits .f32 0x3F000000#32))
  xor x y := fire (FloatOps.subf (FloatOps.subf (FloatOps.addf x y)
      (FloatOps.mulf (FloatOps.ofBits .f32 0x40000000#32)
        (fire (FloatOps.subf (FloatOps.addf x y) (FloatOps.ofBits .f32 0x3FC00000#32)))))
    (FloatOps.ofBits .f32 0x3F000000#32))
  low := FloatOps.ofBits .f32 0x00000000#32

/-- Over the extended reals the two units are one function: a one-bit word widened and read signed is the bit. -/
theorem fireKernel_eq_fireHost : (fireKernel : Ideal .f32 → Ideal .f32) = fireHost := by
  funext x
  show ((((FloatOps.cmpf .oge x (FloatOps.ofBits (F := Ideal) .f32 0x00000000#32)).setWidth 32).toInt : ℝ) : EReal)
    = ((((FloatOps.cmpf .oge x (FloatOps.ofBits (F := Ideal) .f32 0x00000000#32)).toNat : ℝ)) : EReal)
  rw [toInt_setWidth_bit]
  norm_cast

/-! ## On arrays -/

/-- The kernel's threshold unit on an array of shape S. -/
def fireKernelVec (S : Shape) (x : FVec F S .f32) : FVec F S .f32 :=
  sitofp .f32 (extui 32 (cmpf .oge x (broadcast S (Scalar.ofBits .f32 0x00000000#32))) (by decide))

/-- The kernel's gates on arrays of shape S: the words are splat. -/
def kernelGates (S : Shape) : Gates (FVec F S .f32) where
  and x y := fireKernelVec S (subf (addf x y) (broadcast S (Scalar.ofBits .f32 0x3FC00000#32)))
  or x y := fireKernelVec S (subf (addf x y) (broadcast S (Scalar.ofBits .f32 0x3F000000#32)))
  xor x y := fireKernelVec S (subf (subf (addf x y)
      (mulf (broadcast S (Scalar.ofBits .f32 0x40000000#32))
        (fireKernelVec S (subf (addf x y) (broadcast S (Scalar.ofBits .f32 0x3FC00000#32))))))
    (broadcast S (Scalar.ofBits .f32 0x3F000000#32)))
  low := broadcast S (Scalar.ofBits .f32 0x00000000#32)

/-- The kernel's network on arrays, read at an index, is the scalar network of the operands' entries there. -/
theorem kernelNet_apply (S : Shape) (a b : Fin 4 → FVec F S .f32) (k : Fin 8) (i : S.Idx) :
    net (kernelGates S) a b k i = net (thresholdGates fireKernel) (fun j => a j i) (fun j => b j i) k :=
  net_map (kernelGates S) (thresholdGates fireKernel) (fun v => v i) (fun _ _ => rfl) (fun _ _ => rfl)
    (fun _ _ => rfl) rfl a b k

/-- The host's threshold unit on an array of shape S: its zero is a rank-0 constant broadcast. -/
def fireHostVec (S : Shape) (h : (⟨0, ![]⟩ : Shape).BroadcastsInDim S ![]) (x : FVec F S .f32) : FVec F S .f32 :=
  uitofp .f32 (cmpf .oge x (broadcastInDim S ![] h (constant ⟨0, ![]⟩ .f32 0x00000000#32)))

/-- The host's gates on arrays of shape S: each word is a rank-0 constant broadcast. -/
def hostGates (S : Shape) (h : (⟨0, ![]⟩ : Shape).BroadcastsInDim S ![]) : Gates (FVec F S .f32) where
  and x y := fireHostVec S h (subf (addf x y) (broadcastInDim S ![] h (constant ⟨0, ![]⟩ .f32 0x3FC00000#32)))
  or x y := fireHostVec S h (subf (addf x y) (broadcastInDim S ![] h (constant ⟨0, ![]⟩ .f32 0x3F000000#32)))
  xor x y := fireHostVec S h (subf (subf (addf x y)
      (mulf (broadcastInDim S ![] h (constant ⟨0, ![]⟩ .f32 0x40000000#32))
        (fireHostVec S h (subf (addf x y) (broadcastInDim S ![] h (constant ⟨0, ![]⟩ .f32 0x3FC00000#32))))))
    (broadcastInDim S ![] h (constant ⟨0, ![]⟩ .f32 0x3F000000#32)))
  low := broadcastInDim S ![] h (constant ⟨0, ![]⟩ .f32 0x00000000#32)

/-- The host's network on arrays, read at an index, is the scalar network of the operands' entries there. -/
theorem hostNet_apply (S : Shape) (h : (⟨0, ![]⟩ : Shape).BroadcastsInDim S ![]) (a b : Fin 4 → FVec F S .f32)
    (k : Fin 8) (i : S.Idx) :
    net (hostGates S h) a b k i = net (thresholdGates fireHost) (fun j => a j i) (fun j => b j i) k :=
  net_map (hostGates S h) (thresholdGates fireHost) (fun v => v i) (fun _ _ => rfl) (fun _ _ => rfl)
    (fun _ _ => rfl) rfl a b k

end Cert.GateNet

end
-- ==== Proof.KernelBody.lean ====
/-
  What the kernel's body stores, as the multiplier network.

  At one grid point the body loads a [4, 131072] block of each transposed operand (row j of the block holds bit j
  of 131072 consecutive operand pairs), computes the multiplier's gate network on whole rows — every gate is an
  entry-by-entry threshold unit — and stores the eight result rows stacked into an [8, 131072] block. So the stored
  block is the eight rows of the network over the operands' rows (out_eq_stacked: the body's arithmetic is, term
  for term, the network's), and its entry (k, q) is bit k of the scalar network applied to column q of the two
  loaded blocks (stacked_block).
-/
import proofs.«166286_j23407571764172_2_alg».proof.Proof.Threshold
import proofs.«166286_j23407571764172_2_alg».proof.Proof.Gen.KernelIdeal.Frame
import Idealize.ShloMosaic.Lib.Pipeline.Value
import Idealize.ShloMosaic.Lib.ValueIdx
import Idealize.ShloMosaic.Lib.ValueLayout

set_option maxRecDepth 65536

noncomputable section

namespace Cert.KernelIdeal.Body

open Cert.KernelIdeal Cert.KernelIdeal.Gen Cert.GateNet Idealize.ShloMosaic Idealize.ShloMosaic.ValueIdx

variable {F : FTy → Type} [FloatOps F]

/-- Row j of a loaded [4, 131072] block, as the body slices it. -/
def rowOf (x : Vec F S4x131072 .f32) : Fin 4 → FVec F S1x131072 .f32
  | 0 => extractStridedSlice S1x131072 ![0, 0] (shapeCast S4x131072 x Gen.shapeCasts_S4x131072_S4x131072)
      Gen.slices_S4x131072_o0_0_S1x131072
  | 1 => extractStridedSlice S1x131072 ![1, 0] (shapeCast S4x131072 x Gen.shapeCasts_S4x131072_S4x131072)
      Gen.slices_S4x131072_o1_0_S1x131072
  | 2 => extractStridedSlice S1x131072 ![2, 0] (shapeCast S4x131072 x Gen.shapeCasts_S4x131072_S4x131072)
      Gen.slices_S4x131072_o2_0_S1x131072
  | 3 => extractStridedSlice S1x131072 ![3, 0] (shapeCast S4x131072 x Gen.shapeCasts_S4x131072_S4x131072)
      Gen.slices_S4x131072_o3_0_S1x131072

/-- Row j of a block at column q is the block's entry (j, q). -/
theorem rowOf_apply (x : Vec F S4x131072 .f32) (j : Fin 4) (q : Fin 131072) :
    rowOf x j (ix2 (0 : Fin 1) q) = x (ix2 j q) := by
  fin_cases j
  · exact (slice2_axis0_apply (m := 1) 0 (shapeCast S4x131072 x Gen.shapeCasts_S4x131072_S4x131072)
      Gen.slices_S4x131072_o0_0_S1x131072 (0 : Fin 1) q (0 : Fin 4) rfl).trans
      (congrFun (shapeCast_self x Gen.shapeCasts_S4x131072_S4x131072) (ix2 (0 : Fin 4) q))
  · exact (slice2_axis0_apply (m := 1) 1 (shapeCast S4x131072 x Gen.shapeCasts_S4x131072_S4x131072)
      Gen.slices_S4x131072_o1_0_S1x131072 (0 : Fin 1) q (1 : Fin 4) rfl).trans
      (congrFun (shapeCast_self x Gen.shapeCasts_S4x131072_S4x131072) (ix2 (1 : Fin 4) q))
  · exact (slice2_axis0_apply (m := 1) 2 (shapeCast S4x131072 x Gen.shapeCasts_S4x131072_S4x131072)
      Gen.slices_S4x131072_o2_0_S1x131072 (0 : Fin 1) q (2 : Fin 4) rfl).trans
      (congrFun (shapeCast_self x Gen.shapeCasts_S4x131072_S4x131072) (ix2 (2 : Fin 4) q))
  · exact (slice2_axis0_apply (m := 1) 3 (shapeCast S4x131072 x Gen.shapeCasts_S4x131072_S4x131072)
      Gen.slices_S4x131072_o3_0_S1x131072 (0 : Fin 1) q (3 : Fin 4) rfl).trans
      (congrFun (shapeCast_self x Gen.shapeCasts_S4x131072_S4x131072) (ix2 (3 : Fin 4) q))

/-- The eight rows of the network over the two blocks' rows, stacked along axis 0. -/
def stacked (x0 x1 : Vec F S4x131072 .f32) : FVec F S8x131072 .f32 :=
  concatenate S8x131072 0
    (List.ofFn fun k : Fin 8 =>
      (⟨S1x131072, net (kernelGates S1x131072) (rowOf x0) (rowOf x1) k⟩ : (s : Shape) × (s.Idx → F .f32)))
    Gen.concatenates_S1x131072_S1x131072_S1x131072_S1x131072_S1x131072_S1x131072_S1x131072_S1x131072_S8x131072_d0

theorem zero_offsets : (![0, 0] : Fin 2 → Nat) = fun _ => 0 := funext fun a => by fin_cases a <;> rfl

/-- The block the body leaves in the output window's buffer is the stacked network of the loaded blocks' rows:
    the body's operations are the network's, one for one. -/
theorem out_eq_stacked (x0 x1 : Vec F S4x131072 .f32) : out0_2 x0 x1 = stacked x0 x1 := by
  unfold out0_2
  rw [View.canon_unit_zero zero_offsets]
  simp only [View.ld_unit_zero (S := S4x131072) zero_offsets]
  rfl

/-- Entry (k, q) of the stacked block: bit k of the scalar network on column q of the two blocks. -/
theorem stacked_apply (x0 x1 : Vec F S4x131072 .f32) (k : Fin 8) (q : Fin 131072) :
    stacked x0 x1 (ix2 k q)
      = net (thresholdGates fireKernel) (fun j => x0 (ix2 j q)) (fun j => x1 (ix2 j q)) k := by
  unfold stacked
  refine (concatenate_ofFn_unit_apply (t := S8x131072) (s₁ := S1x131072) (0 : Fin 2)
    (fun k : Fin 8 => net (kernelGates S1x131072) (rowOf x0) (rowOf x1) k)
    Gen.concatenates_S1x131072_S1x131072_S1x131072_S1x131072_S1x131072_S1x131072_S1x131072_S1x131072_S8x131072_d0
    rfl rfl (ix2 k q) k rfl (ix2 (0 : Fin 1) q)
    (fun b hb => by
      match b with
      | ⟨0, _⟩ => exact absurd rfl hb
      | ⟨1, _⟩ => rfl)).trans ?_
  rw [kernelNet_apply]
  simp only [rowOf_apply]

/-- The same at any index of the block. -/
theorem stacked_block (x0 x1 : Vec F S4x131072 .f32) (y : S8x131072.Idx) :
    stacked x0 x1 y
      = net (thresholdGates fireKernel) (fun j => x0 (ix2 j (y 1))) (fun j => x1 (ix2 j (y 1))) (y 0) := by
  exact (congrArg (stacked x0 x1) (eq_ix2 y)).trans (stacked_apply x0 x1 (y 0) (y 1))

end Cert.KernelIdeal.Body

end
-- ==== Proof.KernelValue.lean ====
/-
  The kernel's run, read: the result array as one function of the two operands.

  @main transposes each [4194304, 4] operand to [4, 4194304], so that bit j of operand pair n sits at (j, n); the
  pallas_call walks 32 grid points, point t taking columns 131072·t … 131072·t + 131071 of both transposed
  operands and writing the same columns of an [8, 4194304] array; @main transposes that array back to
  [4194304, 8]. The block written at point t is the stacked network of the two loaded blocks, so entry (k, n) of
  the [8, 4194304] array is bit k of the scalar network on column n of the transposed operands (regionOut,
  flushed_eq; the 32 blocks tile the array: cover), and entry (n, k) of the result is bit k of the scalar network
  on row n of the operands (kernelResult, tail_eq).
-/
import proofs.«166286_j23407571764172_2_alg».proof.Proof.KernelBody
import Idealize.ShloMosaic.Lib.StableHlo.Run

set_option maxRecDepth 65536

noncomputable section

namespace Cert.KernelIdeal.Body

open Cert.KernelIdeal Cert.KernelIdeal.Gen Cert.GateNet Idealize.ShloMosaic Idealize.ShloMosaic.ValueIdx
open Idealize.ShloMosaic.TcCoe Idealize.SL.Sem Idealize.ShloMosaic.StableHlo

variable {F : FTy → Type} [FloatOps F]

/-- The [8, 4194304] array the region leaves, from the transposed operands: entry (k, n) is bit k of the network on
    column n. -/
def regionOut (a0 a1 : S4x4194304.Idx → F .f32) : S8x4194304.Idx → F .f32 :=
  fun i => net (thresholdGates fireKernel) (fun j => a0 (ix2 j (i 1))) (fun j => a1 (ix2 j (i 1))) (i 0)

/-- The result array, from the operands: entry (n, k) is bit k of the network on row n. -/
def kernelResult (A B : S4194304x4.Idx → F .f32) : S4194304x8.Idx → F .f32 :=
  fun i => net (thresholdGates fireKernel) (fun j => A (ix2 (i 0) j)) (fun j => B (ix2 (i 0) j)) (i 1)

variable (m : (ℓ : Loc nD τ sig) → Buf (Elt F) ℓ) (ρ : Dev nD → PrngReg)

/-- The three windows' index maps over the grid: block row 0, block column t. -/
theorem index_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- What point t writes back is block t of regionOut of the transposed operands as the region finds them. -/
theorem flushed_eq (c : Dev nD) (t : Fin cfg0.N) :
    (dats m 0 c).flushed 2 t
      = ((cfg0.win 2).blk t).view.read (Elt F) (regionOut (V m c main_v0) (V m c main_v1)) := by
  show (cfg0.win 2).cut (grid0.coords t) ((dats m 0 c).after 2 t) = _
  rw [after0_2, out_eq_stacked]
  obtain ⟨e00, e01, e10, e11, e20, e21⟩ := index_facts t
  funext y
  show stacked (iblk m c 0 t) (iblk m c 1 t) y
    = regionOut (V m c main_v0) (V m c main_v1) (((cfg0.win 2).blk t).view.emb y)
  refine (stacked_block _ _ y).trans ?_
  unfold regionOut
  refine net_congr _ (fun j => ?_) (fun j => ?_) (Fin.ext ?_)
  · show V m c main_v0 (((cfg0.win 0).blk t).view.emb (ix2 j (y 1))) = _
    refine congrArg _ (funext fun a => Fin.ext ?_)
    match a with
    | ⟨0, _⟩ => show win0_0.index t (0 : Fin 2) * 4 + 1 * j.val = j.val; omega
    | ⟨1, _⟩ =>
      show win0_0.index t (1 : Fin 2) * 131072 + 1 * (y 1).val = win0_2.index t (1 : Fin 2) * 131072 + 1 * (y 1).val
      omega
  · show V m c main_v1 (((cfg0.win 1).blk t).view.emb (ix2 j (y 1))) = _
    refine congrArg _ (funext fun a => Fin.ext ?_)
    match a with
    | ⟨0, _⟩ => show win0_1.index t (0 : Fin 2) * 4 + 1 * j.val = j.val; omega
    | ⟨1, _⟩ =>
      show win0_1.index t (1 : Fin 2) * 131072 + 1 * (y 1).val = win0_2.index t (1 : Fin 2) * 131072 + 1 * (y 1).val
      omega
  · show (y 0).val = win0_2.index t (0 : Fin 2) * 8 + 1 * (y 0).val
    omega

/-- An index of the array is in point t's block iff each coordinate is in the block's range on its axis. -/
theorem mem_blk (t : Fin cfg0.N) (i : S8x4194304.Idx) :
    i ∈ ((cfg0.win 2).blk t).view.set ↔ ∀ a : Fin 2, win0_2.index t a * S8x131072.size a ≤ (i a).val
      ∧ (i a).val < win0_2.index t a * S8x131072.size a + S8x131072.size a := by
  show i ∈ ((View.whole main_v2).slice (win0_2.rect t)).set ↔ _
  rw [View.set_slice_whole, Rect.mem_set_unit]
  exact Iff.rfl

/-- The 32 blocks tile the array: column n lies in the block of point n / 131072. -/
theorem cover (i : S8x4194304.Idx) :
    ∃ t : Fin cfg0.N, (cfg0.win 2).flush t = true ∧ i ∈ ((cfg0.win 2).blk t).view.set := by
  have hi0 : (i 0).val < 8 := (i 0).isLt
  have hi1 : (i 1).val < 4194304 := (i 1).isLt
  have hN : cfg0.N = 32 := N_0
  let t : Fin cfg0.N := ⟨(i 1).val / 131072, by omega⟩
  obtain ⟨-, -, -, -, e20, e21⟩ := index_facts t
  have e21' : win0_2.index t (1 : Fin 2) = (i 1).val / 131072 := e21
  refine ⟨t, flush0_2 t, ?_⟩
  rw [mem_blk]
  intro a
  match a with
  | ⟨0, _⟩ =>
    show win0_2.index t (0 : Fin 2) * 8 ≤ (i 0).val ∧ (i 0).val < win0_2.index t (0 : Fin 2) * 8 + 8
    omega
  | ⟨1, _⟩ =>
    show win0_2.index t (1 : Fin 2) * 131072 ≤ (i 1).val ∧ (i 1).val < win0_2.index t (1 : Fin 2) * 131072 + 131072
    omega

/-- The [8, 4194304] array after the region. -/
theorem final (c : Dev nD) : (dats m 0 c).arrAt 2 cfg0.N = regionOut (V m c main_v0) (V m c main_v1) :=
  (dats m 0 c).arrAt_eq_of_cover 2 (regionOut (V m c main_v0) (V m c main_v1)) (fun t _ => flushed_eq m c t) cover

/-- The region finds each transposed operand as the host's transpose of the operand as launched. -/
theorem V_main_v0 (c : Dev nD) : (V m c main_v0 : S4x4194304.Idx → F .f32)
    = transpose S4x4194304 [1, 0] (m ((c : Thread nD τ).loc main_arg0)) Gen.transposes_S4194304x4_S4x4194304_1_0 := by
  show StableHlo.after hostOps0 (fun b => m (c, b)) (Proc.devRef .tc main_v0) = _
  after_results

theorem V_main_v1 (c : Dev nD) : (V m c main_v1 : S4x4194304.Idx → F .f32)
    = transpose S4x4194304 [1, 0] (m ((c : Thread nD τ).loc main_arg1)) Gen.transposes_S4194304x4_S4x4194304_1_0 := by
  show StableHlo.after hostOps0 (fun b => m (c, b)) (Proc.devRef .tc main_v1) = _
  after_results

/-- The result buffer after the transpose back. -/
theorem tail_eq (c : Dev nD) :
    Pipeline.afterTail₀ cfgs (dats m) 0 (V0 m) [hostOps1] c main_v3
      = kernelResult (m ((c : Thread nD τ).loc main_arg0)) (m ((c : Thread nD τ).loc main_arg1)) := by
  unfold Pipeline.afterTail₀
  show StableHlo.after hostOps1 _ (Proc.devRef .tc main_v3) = _
  after_results
  rw [show Pipeline.withArrays spec0 c (V0 m c) (fun w => (dats m 0 c).arrAt w cfg0.N) (Proc.devRef .tc main_v2)
      = regionOut (V m c main_v0) (V m c main_v1) from
    (Pipeline.withArrays_arr spec0 launch0.win.arr_inj c _ _ 2).trans (final m c)]
  funext i
  obtain ⟨n, k, rfl⟩ : ∃ (n : Fin 4194304) (k : Fin 8), i = ix2 n k := ⟨i 0, i 1, eq_ix2 i⟩
  refine (transpose_ix2_apply (regionOut (V m c main_v0) (V m c main_v1)) _ n k).trans ?_
  show net (thresholdGates fireKernel) (fun j => V m c main_v0 (ix2 j n)) (fun j => V m c main_v1 (ix2 j n)) k
    = net (thresholdGates fireKernel) (fun j => m ((c : Thread nD τ).loc main_arg0) (ix2 n j))
        (fun j => m ((c : Thread nD τ).loc main_arg1) (ix2 n j)) k
  refine net_congr _ (fun j => ?_) (fun j => ?_) rfl
  · exact (congrFun (V_main_v0 m c) (ix2 j n)).trans (transpose_ix2_apply _ _ j n)
  · exact (congrFun (V_main_v1 m c) (ix2 j n)).trans (transpose_ix2_apply _ _ j n)

/-- The kernel's run, read: the result array at kernelResult of the operands, the operands unchanged. -/
theorem run : θ_run defs (onTc (τ := τ) (main (F := F))) ⟨m, fun _ => 0, ρ⟩ fun r => ∀ c : Dev nD,
      r.2.mem ((c.tc : Thread nD τ).loc main_v3)
        = kernelResult (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Body

end
-- ==== Proof.RefBody.lean ====
/-
  What the reference computes, as the multiplier network.

  The reference slices column j of each [4194304, 4] operand as a [4194304, 1] array, computes the multiplier's gate
  network on whole columns — every gate an entry-by-entry threshold unit whose words are rank-0 constants broadcast —
  and lays the eight result columns side by side. Its run's result term is, operation for operation, that network
  (res_eq_sideBySide), and its entry (n, k) is bit k of the scalar network applied to row n of the two operands
  (res_apply).
-/
import proofs.«166286_j23407571764172_2_alg».proof.Proof.Threshold
import proofs.«166286_j23407571764172_2_alg».proof.Proof.RefRun
import Idealize.ShloMosaic.Lib.Pipeline.Value
import Idealize.ShloMosaic.Lib.ValueIdx
import Idealize.ShloMosaic.Lib.ValueLayout

set_option maxRecDepth 65536

noncomputable section

namespace Cert.ReferenceIdeal.Body

open Cert.ReferenceIdeal Cert.ReferenceIdeal.Gen Cert.ReferenceIdeal.ValueP Cert.GateNet
open Idealize.ShloMosaic Idealize.ShloMosaic.ValueIdx

variable {F : FTy → Type} [FloatOps F]

/-- Column j of an operand, as the reference slices it. -/
def colOf (X : FVec F S4194304x4 .f32) : Fin 4 → FVec F S4194304x1 .f32
  | 0 => extractStridedSlice S4194304x1 ![0, 0] X Gen.slices_S4194304x4_S4194304x1_0_0
  | 1 => extractStridedSlice S4194304x1 ![0, 1] X Gen.slices_S4194304x4_S4194304x1_0_1
  | 2 => extractStridedSlice S4194304x1 ![0, 2] X Gen.slices_S4194304x4_S4194304x1_0_2
  | 3 => extractStridedSlice S4194304x1 ![0, 3] X Gen.slices_S4194304x4_S4194304x1_0_3

/-- Column j of an operand at row n is the operand's entry (n, j). -/
theorem colOf_apply (X : FVec F S4194304x4 .f32) (j : Fin 4) (n : Fin 4194304) :
    colOf X j (ix2 n (0 : Fin 1)) = X (ix2 n j) := by
  fin_cases j
  · exact slice2_axis1_apply (m := 1) 0 X Gen.slices_S4194304x4_S4194304x1_0_0 n (0 : Fin 1) (0 : Fin 4) rfl
  · exact slice2_axis1_apply (m := 1) 1 X Gen.slices_S4194304x4_S4194304x1_0_1 n (0 : Fin 1) (1 : Fin 4) rfl
  · exact slice2_axis1_apply (m := 1) 2 X Gen.slices_S4194304x4_S4194304x1_0_2 n (0 : Fin 1) (2 : Fin 4) rfl
  · exact slice2_axis1_apply (m := 1) 3 X Gen.slices_S4194304x4_S4194304x1_0_3 n (0 : Fin 1) (3 : Fin 4) rfl

/-- The eight columns of the network over the two operands' columns, side by side along axis 1. -/
def sideBySide (A B : FVec F S4194304x4 .f32) : FVec F S4194304x8 .f32 :=
  concatenate S4194304x8 1
    (List.ofFn fun k : Fin 8 =>
      (⟨S4194304x1, net (hostGates S4194304x1 Gen.bcast_S_S4194304x1) (colOf A) (colOf B) k⟩ :
        (s : Shape) × (s.Idx → F .f32)))
    Gen.concatenates_S4194304x1_S4194304x1_S4194304x1_S4194304x1_S4194304x1_S4194304x1_S4194304x1_S4194304x1_S4194304x8_d1

/-- The reference's result term is the network of its operands' columns: its operations are the network's, one for
    one. -/
theorem res_eq_sideBySide (V0 : Valuation τ sig (Elt F)) :
    res_out0 V0 = sideBySide (V0 (Proc.devRef .tc main_arg0)) (V0 (Proc.devRef .tc main_arg1)) := by
  show res_main_v624 V0 = _
  unfold res_main_v624
  rfl

/-- Entry (n, k) of the side-by-side array: bit k of the scalar network on row n of the two operands. -/
theorem sideBySide_apply (A B : FVec F S4194304x4 .f32) (n : Fin 4194304) (k : Fin 8) :
    sideBySide A B (ix2 n k)
      = net (thresholdGates fireHost) (fun j => A (ix2 n j)) (fun j => B (ix2 n j)) k := by
  unfold sideBySide
  refine (concatenate_ofFn_unit_apply (t := S4194304x8) (s₁ := S4194304x1) (1 : Fin 2)
    (fun k : Fin 8 => net (hostGates S4194304x1 Gen.bcast_S_S4194304x1) (colOf A) (colOf B) k)
    Gen.concatenates_S4194304x1_S4194304x1_S4194304x1_S4194304x1_S4194304x1_S4194304x1_S4194304x1_S4194304x1_S4194304x8_d1
    rfl rfl (ix2 n k) k rfl (ix2 n (0 : Fin 1))
    (fun b hb => by
      match b with
      | ⟨0, _⟩ => rfl
      | ⟨1, _⟩ => exact absurd rfl hb)).trans ?_
  rw [hostNet_apply]
  simp only [colOf_apply]

end Cert.ReferenceIdeal.Body

end
-- ==== Proof.lean ====
/-
  The certificate of a 4-bit by 4-bit multiplier built from spiking threshold gates, batched over 4194304 operand
  pairs: a Pallas kernel on transposed operands against the plain jnp reference.

  Both programs compute, for every operand pair n, the same network of threshold gates (Proof/GateNet.lean: sixteen
  AND gates for the partial products, then three rows of half and full adders) on the pair's eight input bits, and
  write the product's eight bits. They differ in layout only. The reference works on [4194304, 1] columns of the
  operands and concatenates the eight result columns (Proof/RefBody.lean). The kernel's @main transposes the operands,
  the kernel works on [1, 131072] rows of [4, 131072] blocks, 32 grid points side by side, stacks the eight result rows,
  and @main transposes back (Proof/KernelBody.lean, Proof/KernelValue.lean). A gate is an entry-by-entry threshold
  unit, so both results at (n, k) are bit k of ONE scalar network on row n of the operands. The two programs spell
  the threshold unit's answer differently (a bit converted against a widened word converted signed); over the
  extended reals that is one function (Proof/Threshold.lean). No law of arithmetic is used, so the finiteness of the
  inputs is never needed; the idealization ledger is empty, so the preserves claim is trivial.
-/
import proofs.«166286_j23407571764172_2_alg».proof.Defs
import proofs.«166286_j23407571764172_2_alg».proof.Proof.Gen.Kernel
import proofs.«166286_j23407571764172_2_alg».proof.Proof.Gen.Kernel.Skeleton
import proofs.«166286_j23407571764172_2_alg».proof.Proof.Gen.Kernel.Launch
import proofs.«166286_j23407571764172_2_alg».proof.Proof.Gen.Kernel.Points
import proofs.«166286_j23407571764172_2_alg».proof.Proof.Gen.Kernel.Frame
import proofs.«166286_j23407571764172_2_alg».proof.Proof.Gen.KernelIdeal
import proofs.«166286_j23407571764172_2_alg».proof.Proof.Gen.KernelIdeal.Skeleton
import proofs.«166286_j23407571764172_2_alg».proof.Proof.Gen.KernelIdeal.Launch
import proofs.«166286_j23407571764172_2_alg».proof.Proof.Gen.KernelIdeal.Points
import proofs.«166286_j23407571764172_2_alg».proof.Proof.Gen.KernelIdeal.Frame
import proofs.«166286_j23407571764172_2_alg».proof.Proof.Gen.ReferenceIdeal
import proofs.«166286_j23407571764172_2_alg».proof.Proof.Gen.Pre_finite_inputs
import proofs.«166286_j23407571764172_2_alg».proof.Proof.KernelValue
import proofs.«166286_j23407571764172_2_alg».proof.Proof.RefBody
import Idealize.ShloMosaic.Adequacy
import Idealize.ShloMosaic.Init

noncomputable section

namespace Cert.Proof

open Idealize.ShloMosaic Idealize.ShloMosaic.TcCoe Idealize.SL.Sem Idealize.ShloMosaic.ValueIdx Cert.GateNet

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Over the extended reals both programs end with, at (n, k), bit k of the scalar gate network on row n of the
    operands: the kernel by its run read back, the reference by its run's term read at the index, the two threshold
    units one function. -/
theorem algebraic : Cert.algebraic_KernelIdeal_ReferenceIdeal := by
  intro m ρ m' ρ' _ hagree
  refine ⟨_, Cert.KernelIdeal.Body.run (F := Ideal) m ρ, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.Body.res_eq_sideBySide _).trans ?_
  funext i
  obtain ⟨n, k, rfl⟩ : ∃ (n : Fin 4194304) (k : Fin 8), i = ix2 n k := ⟨i 0, i 1, eq_ix2 i⟩
  refine (Cert.ReferenceIdeal.Body.sideBySide_apply _ _ n k).trans ?_
  unfold Cert.KernelIdeal.Body.kernelResult
  rw [fireKernel_eq_fireHost]
  exact net_congr _ (fun j => congrFun (hagree c).1 (ix2 n j))
    (fun j => congrFun (hagree c).2 (ix2 n j)) rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
